-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S256x128 : Shape := ⟨2, ![256, 128]⟩
abbrev S256x40 : Shape := ⟨2, ![256, 40]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256x40 : S_.BroadcastsInDim S256x40 (![] : Fin 0 → Fin S256x40.rank)
  reducesTo_S256x40_S_d0_1 : S256x40.ReducesTo [0, 1] S_

variable [Facts]

def fn {F : FTy → Type} [FloatOps F] (main_arg0 : FVec F S100000x128 .f32) (main_arg1 : FVec F S256x128 .f32) (main_arg2 : FVec F S256x40 .f32) (main_arg3 : IVec S1600000 32) (main_arg4 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x40 .f32 := Host.absf main_arg2
  let main_cst_2 : FVec F S_ .f32 := constant S_ .f32 0x7F800000#32
  let main_v10 : FVec F S256x40 .f32 := broadcastInDim S256x40 ![] bcast_S_S256x40 main_cst_2
  let main_v11 : IVec S256x40 1 := cmpf .olt main_v9 main_v10
  let main_c_3 : IVec S_ 1 := constantI S_ 1 1#1
  let main_v12 : IVec S_ 1 := (fun x v => Host.reduce IntOp.andi x v reducesTo_S256x40_S_d0_1 h_S_) main_v11 main_c_3
  let main_v13 : IVec S_ 1 := andi main_v8 main_v12
  main_v13
-- ==== Kernel.lean ====
abbrev S100000x128 : Shape := ⟨2, ![100000, 128]⟩
abbrev S256x128 : Shape := ⟨2, ![256, 128]⟩
abbrev S256x40 : Shape := ⟨2, ![256, 40]⟩
abbrev S1600000 : Shape := ⟨1, ![1600000]⟩
abbrev S128x128 : Shape := ⟨2, ![128, 128]⟩
abbrev S128x40 : Shape := ⟨2, ![128, 40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S4000x128 : Shape := ⟨2, ![4000, 128]⟩
abbrev S4000x1 : Shape := ⟨2, ![4000, 1]⟩
abbrev S100000x40 : Shape := ⟨2, ![100000, 40]⟩
abbrev S4000x40 : Shape := ⟨2, ![4000, 40]⟩
abbrev S4000 : Shape := ⟨1, ![4000]⟩

abbrev nBuf : Space → Nat
  | .hbm => 50
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S256x128, .f32⟩
  | .hbm, ⟨2, _⟩ => ⟨S256x40, .f32⟩
  | .hbm, ⟨3, _⟩ => ⟨S1600000, .i32⟩
  | .hbm, ⟨4, _⟩ => ⟨S1600000, .i32⟩
  | .hbm, ⟨5, _⟩ => ⟨S128x128, .f32⟩
  | .hbm, ⟨6, _⟩ => ⟨S128x128, .f32⟩
  | .hbm, ⟨7, _⟩ => ⟨S128x40, .f32⟩
  | .hbm, ⟨8, _⟩ => ⟨S128x40, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S100000x40, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x1, .f32⟩
  | .local _ .vmem, ⟨15, _⟩ => ⟨S4000x1, .f32⟩
  | .local _ .vmem, ⟨16, _⟩ => ⟨S128x40, .f32⟩
  | .local _ .vmem, ⟨17, _⟩ => ⟨S128x40, .f32⟩
  | .local _ .vmem, ⟨18, _⟩ => ⟨S4000x40, .f32⟩
  | .local _ .vmem, ⟨19, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S256x128_S128x128_0_0 : S256x128.Slices ![0, 0] S128x128
  slices_S256x128_S128x128_128_0 : S256x128.Slices ![128, 0] S128x128
  slices_S256x40_S128x40_0_0 : S256x40.Slices ![0, 0] S128x40
  slices_S256x40_S128x40_128_0 : S256x40.Slices ![128, 0] S128x40
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x40_S128x40_0_0 : ∀ a, (![0, 0] : Fin 2 → Nat) a + S128x40.size a ≤ S128x40.size a
  h_S128x40 : 0 < S128x40.numel
  shapeCasts_S128x40_S128x40 : S128x40.ShapeCasts S128x40
  reduces_S4000x40_S4000 : S4000x40.Reduces [1] S4000
  shapeCasts_S4000_S4000x1 : S4000.ShapeCasts S4000x1
  broadcasts_S4000x1_S4000x40 : S4000x1.Broadcasts S4000x40
  inb_S4000x40_S4000x40_0_0 : ∀ a, (![0, 0] : Fin 2 → Nat) a + S4000x40.size a ≤ S4000x40.size a
  h_S4000x40 : 0 < S4000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x40_S4000x40_1_0_0_1_n_n_wf : DotDims.WF S4000x128 S128x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x40.size a ≤ S128x40.size a
  hwx1_3 : ∀ i : grid1.Coords, EltTy.bits .f32 = 32 ∨ (Rect.block (s := S128x40) S128x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x40.size a ≤ S128x40.size a
  hwx1_4 : ∀ i : grid1.Coords, EltTy.bits .f32 = 32 ∨ (Rect.block (s := S128x40) S128x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x40.size a ≤ S100000x40.size a
  hwx1_5 : ∀ i : grid1.Coords, EltTy.bits .f32 = 32 ∨ (Rect.block (s := S100000x40) S4000x40.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S128x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S128x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S4000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S256x128 : Shape := ⟨2, ![256, 128]⟩
abbrev S256x40 : Shape := ⟨2, ![256, 40]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x256 : Shape := ⟨2, ![100000, 256]⟩
abbrev S100000x40 : Shape := ⟨2, ![100000, 40]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S256x128, .f32⟩
  | .hbm, ⟨2, _⟩ => ⟨S256x40, .f32⟩
  | .hbm, ⟨3, _⟩ => ⟨S1600000, .i32⟩
  | .hbm, ⟨4, _⟩ => ⟨S1600000, .i32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S100000x256, .f32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S_, .f32⟩
  | .hbm, ⟨49, _⟩ => ⟨S1600000, .f32⟩
  | .hbm, ⟨50, _⟩ => ⟨S_, .f32⟩
  | .hbm, ⟨51, _⟩ => ⟨S100000, .f32⟩
  | .hbm, ⟨52, _⟩ => ⟨S1600000x1, .i32⟩
  | .hbm, ⟨53, _⟩ => ⟨S100000, .f32⟩
  | .hbm, ⟨54, _⟩ => ⟨S_, .f32⟩
  | .hbm, ⟨55, _⟩ => ⟨S100000, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x256, .f32⟩
  | .hbm, ⟨61, _⟩ => ⟨S100000x40, .f32⟩
  | .hbm, ⟨62, _⟩ => ⟨S_, .f32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x40, .f32⟩
  | .hbm, ⟨69, _⟩ => ⟨S100000x40, .f32⟩
  | .hbm, ⟨70, _⟩ => ⟨S100000x40, .f32⟩
  | .hbm, ⟨71, _⟩ => ⟨S_, .f32⟩
  | .hbm, ⟨72, _⟩ => ⟨S100000, .f32⟩
  | .hbm, ⟨73, _⟩ => ⟨S100000x1, .f32⟩
  | .hbm, ⟨74, _⟩ => ⟨S100000x1, .f32⟩
  | .hbm, ⟨75, _⟩ => ⟨S100000x40, .f32⟩
  | .hbm, ⟨76, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_cst : Ref sig .tc := ⟨.hbm, 32, rfl⟩
abbrev main_call0_v0 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call1_cst : Ref sig .tc := ⟨.hbm, 62, rfl⟩
abbrev main_call1_v0 : Ref sig .tc := ⟨.hbm, 63, rfl⟩
abbrev main_call1_cst_0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_cst_1 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_v43 : Ref sig .tc := ⟨.hbm, 76, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  dot_S100000x256_S256x40_S100000x40_1_0_0_1_n_n_wf : DotDims.WF S100000x256 S256x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x256_S256x40_S100000x40_1_0_0_1_n_n : DotDims S100000x256 S256x40 S100000x40 where
  lhsContracting := [1]
  rhsContracting := [0]
  lhsNonContracting := [0]
  rhsNonContracting := [1]
  lhsBatch := []
  rhsBatch := []
  wf := dot_S100000x256_S256x40_S100000x40_1_0_0_1_n_n_wf

class Facts : Prop extends Facts₀ where

variable [Facts]
-- ==== Proof.Sage.lean ====
/-
  One mean-aggregation graph layer on the extended reals, entry by entry, and the two ways programs spell it.

  A layer takes node features `x` and the per-node sums `S` of neighbour features (both `[n, 128]`), the in-degrees
  `deg` (`[n]`), and a weight matrix `W` of 256 rows whose upper half multiplies `x` and whose lower half multiplies
  the neighbour MEAN `S / max(deg, 1)`:

      pre (r, c) = Σ_{e < 128} x (r, e) · W (e, c) + Σ_{e < 128} (S (r, e) / max (deg r, 1)) · W (128 + e, c).

  * The blocked spelling multiplies `S` by the RECIPROCAL `1 / max (deg r, 1)` and runs two products of 128 terms against
    the two halves of `W` (`pre_of_halves`). Dividing by a nonzero extended real is multiplying by its inverse, and
    `max (d, 1)` is never zero, so `s · (1 / max (d, 1)) = s / max (d, 1)` for every `s` and `d`, infinite ones included
    (`mul_recip`): no finiteness is needed.
  * The one-product spelling joins `x` and the mean side by side into `[n, 256]` and runs one product of 256 terms
    (`pre_of_joined`): a sum over 256 indices is the sum over the first 128 plus the sum over the last 128
    (`sum_split`), which holds in any commutative monoid.
  The first layer ends in a clamp at zero (`hidden`), the second in a row-wise log-softmax (`logSoftmax`).
-/
import Idealize.ShloMosaic.PureOps.Ideal.Laws
import Idealize.ShloMosaic.Lib.ValueIdx
import Mathlib.Algebra.BigOperators.Fin

noncomputable section

open scoped BigOperators

namespace Cert.Sage

open Idealize.ShloMosaic Idealize.ShloMosaic.ValueIdx

/-- A matrix of extended reals. -/
abbrev Mat (a b : ℕ) := (⟨2, ![a, b]⟩ : Shape).Idx → EReal
/-- A vector of extended reals. -/
abbrev Vct (a : ℕ) := (⟨1, ![a]⟩ : Shape).Idx → EReal

/-- The float word of 1.0. -/
abbrev one : EReal := Ideal.ofBits .f32 0x3F800000#32
/-- The float word of 0.0. -/
abbrev zero : EReal := Ideal.ofBits .f32 0x00000000#32
/-- The float word of minus infinity. -/
abbrev negInf : EReal := Ideal.ofBits .f32 0xFF800000#32

/-- The word of 1.0 denotes the number one. -/
theorem one_eq : one = 1 := by
  simp [one, Ideal.ofBits, Ideal.ieee]
  rw [← EReal.coe_mul]
  norm_num

/-- Multiplying by the reciprocal of `max (d, 1)` is dividing by it, for all extended reals `s` and `d`: the divisor
    is at least one, so it is not zero, and division by a nonzero extended real is the product with its inverse. -/
theorem mul_recip (s d : EReal) : s * Ideal.div one (max d one) = Ideal.div s (max d one) := by
  have hm : max d one ≠ 0 := by
    rw [one_eq]
    exact ne_of_gt (lt_of_lt_of_le zero_lt_one (le_max_right d 1))
  unfold Ideal.div
  rw [if_neg hm, if_neg hm, one_eq, one_mul]

/-- Row `e` of the upper half of a 256-row matrix. -/
def top (e : Fin 128) : Fin 256 := ⟨e.val, by omega⟩
/-- Row `e` of the lower half of a 256-row matrix. -/
def bot (e : Fin 128) : Fin 256 := ⟨128 + e.val, by omega⟩

/-- A sum over 256 indices is the sum over the first 128 plus the sum over the last 128. -/
theorem sum_split (f : Fin 256 → EReal) :
    ∑ k : Fin 256, f k = ∑ e : Fin 128, f (top e) + ∑ e : Fin 128, f (bot e) :=
  Fin.sum_univ_add (a := 128) (b := 128) f

variable {n b : ℕ}

/-- One layer before its activation, at row `r` and column `c`. -/
def pre (x S : Mat n 128) (deg : Vct n) (W : Mat 256 b) (r : Fin n) (c : Fin b) : EReal :=
  ∑ e : Fin 128, x (ix2 r e) * W (ix2 (top e) c)
    + ∑ e : Fin 128, Ideal.div (S (ix2 r e)) (max (deg (ix1 r)) one) * W (ix2 (bot e) c)

/-- The blocked spelling of a layer before its activation, over any number of rows `a`: two products of 128 terms, the
    neighbour sums scaled by a column `D` of per-row factors. -/
def halves {a : ℕ} (X S : Mat a 128) (D : Mat a 1) (Wt Wb : Mat 128 b) (p : Fin a) (c : Fin b) : EReal :=
  ∑ e : Fin 128, X (ix2 p e) * Wt (ix2 e c) + ∑ e : Fin 128, (S (ix2 p e) * D (ix2 p (0 : Fin 1))) * Wb (ix2 e c)

/-- The blocked spelling as a matrix. -/
def halvesMat {a : ℕ} (X S : Mat a 128) (D : Mat a 1) (Wt Wb : Mat 128 b) : Mat a b :=
  fun i => halves X S D Wt Wb (i 0) (i 1)

/-- A row of the blocked spelling depends only on that row of its inputs: row `p` of a block of rows is row `r` of
    the whole arrays when the block's row `p` holds the arrays' row `r`. -/
theorem halves_congr {a : ℕ} (x0 s0 : Mat a 128) (d0 : Mat a 1) (X S : Mat n 128) (D : Mat n 1) (wt wb Wt Wb : Mat 128 b)
    (p : Fin a) (r : Fin n) (c : Fin b)
    (hx : ∀ e, x0 (ix2 p e) = X (ix2 r e)) (hs : ∀ e, s0 (ix2 p e) = S (ix2 r e))
    (hd : d0 (ix2 p (0 : Fin 1)) = D (ix2 r (0 : Fin 1)))
    (ht : ∀ e, wt (ix2 e c) = Wt (ix2 e c)) (hb : ∀ e, wb (ix2 e c) = Wb (ix2 e c)) :
    halves x0 s0 d0 wt wb p c = halves X S D Wt Wb r c := by
  unfold halves
  refine congrArg₂ (· + ·) (Finset.sum_congr rfl fun e _ => ?_) (Finset.sum_congr rfl fun e _ => ?_)
  · rw [hx e, ht e]
  · rw [hs e, hd, hb e]

/-- The blocked spelling: row `p` of a block of rows (`x0`, `s0` the block's rows of `x` and `S`, `d0` the block's
    reciprocals, `wt` and `wb` the two halves of `W`) is row `r` of the layer. -/
theorem pre_of_halves {a : ℕ} (x S : Mat n 128) (deg : Vct n) (W : Mat 256 b)
    (x0 s0 : Mat a 128) (d0 : Mat a 1) (wt wb : Mat 128 b) (p : Fin a) (r : Fin n) (c : Fin b)
    (hx : ∀ e, x0 (ix2 p e) = x (ix2 r e)) (hs : ∀ e, s0 (ix2 p e) = S (ix2 r e))
    (hd : d0 (ix2 p (0 : Fin 1)) = Ideal.div one (max (deg (ix1 r)) one))
    (ht : ∀ e, wt (ix2 e c) = W (ix2 (top e) c)) (hb : ∀ e, wb (ix2 e c) = W (ix2 (bot e) c)) :
    ∑ e : Fin 128, x0 (ix2 p e) * wt (ix2 e c) + ∑ e : Fin 128, (s0 (ix2 p e) * d0 (ix2 p (0 : Fin 1))) * wb (ix2 e c)
      = pre x S deg W r c := by
  unfold pre
  refine congrArg₂ (· + ·) (Finset.sum_congr rfl fun e _ => ?_) (Finset.sum_congr rfl fun e _ => ?_)
  · rw [hx e, ht e]
  · rw [hs e, hd, hb e, mul_recip]

/-- The one-product spelling: a row of the side-by-side join `cat` of `x` and the neighbour mean, against all 256
    rows of `W`. -/
theorem pre_of_joined (x S : Mat n 128) (deg : Vct n) (W : Mat 256 b) (cat : Mat n 256) (r : Fin n) (c : Fin b)
    (hl : ∀ e, cat (ix2 r (top e)) = x (ix2 r e))
    (hr : ∀ e, cat (ix2 r (bot e)) = Ideal.div (S (ix2 r e)) (max (deg (ix1 r)) one)) :
    ∑ k : Fin 256, cat (ix2 r k) * W (ix2 k c) = pre x S deg W r c := by
  unfold pre
  rw [sum_split]
  refine congrArg₂ (· + ·) (Finset.sum_congr rfl fun e _ => ?_) (Finset.sum_congr rfl fun e _ => ?_)
  · rw [hl e]
  · rw [hr e]

/-- The first layer: the clamp at zero of `pre`. -/
def hidden (x S : Mat n 128) (deg : Vct n) (W : Mat 256 128) : Mat n 128 :=
  fun i => max (pre x S deg W (i 0) (i 1)) zero

/-- The second layer before its log-softmax. -/
def logits (x S : Mat n 128) (deg : Vct n) (W : Mat 256 b) : Mat n b :=
  fun i => pre x S deg W (i 0) (i 1)

/-- A row-wise log-softmax, shifted by the row's maximum (the fold of `max` from minus infinity). -/
def logSoftmax (z : Mat n b) : Mat n b :=
  fun i => (z i - (Finset.univ : Finset (Fin b)).fold max negInf fun d => z (ix2 (i 0) d))
    - Ideal.log (∑ d : Fin b, Ideal.exp (z (ix2 (i 0) d)
        - (Finset.univ : Finset (Fin b)).fold max negInf fun d => z (ix2 (i 0) d)))

/-- The whole two-layer model, over any neighbour-sum operator `agg` (the sum over incoming edges of the source
    rows: the same operator in both layers) and in-degree vector `deg`. -/
def model (agg : Mat n 128 → Mat n 128) (deg : Vct n) (h : Mat n 128) (W1 : Mat 256 128) (W2 : Mat 256 b) : Mat n b :=
  logSoftmax (logits (hidden h (agg h) deg W1) (agg (hidden h (agg h) deg W1)) deg W2)

/-- The blocked spelling with the reciprocal column and the two halves of `W` is the layer. -/
theorem halves_eq_pre (x S : Mat n 128) (deg : Vct n) (W : Mat 256 b) (D : Mat n 1) (wt wb : Mat 128 b)
    (r : Fin n) (c : Fin b) (hd : D (ix2 r (0 : Fin 1)) = Ideal.div one (max (deg (ix1 r)) one))
    (ht : ∀ e, wt (ix2 e c) = W (ix2 (top e) c)) (hb : ∀ e, wb (ix2 e c) = W (ix2 (bot e) c)) :
    halves x S D wt wb r c = pre x S deg W r c :=
  pre_of_halves x S deg W x S D wt wb r r c (fun _ => rfl) (fun _ => rfl) hd ht hb

/-- A row of the log-softmax depends only on that row of its argument: row `p` of a block of rows whose row `p` is
    the matrix's row `r`. -/
theorem logSoftmax_row {a : ℕ} (z0 : Mat a b) (Z : Mat n b) (p : Fin a) (r : Fin n) (q : Fin b)
    (h : ∀ d, z0 (ix2 p d) = Z (ix2 r d)) :
    (z0 (ix2 p q) - (Finset.univ : Finset (Fin b)).fold max negInf fun d => z0 (ix2 p d))
        - Ideal.log (∑ d : Fin b, Ideal.exp (z0 (ix2 p d)
            - (Finset.univ : Finset (Fin b)).fold max negInf fun d => z0 (ix2 p d)))
      = logSoftmax Z (ix2 r q) := by
  show _ = (Z (ix2 r q) - (Finset.univ : Finset (Fin b)).fold max negInf fun d => Z (ix2 r d))
      - Ideal.log (∑ d : Fin b, Ideal.exp (Z (ix2 r d)
          - (Finset.univ : Finset (Fin b)).fold max negInf fun d => Z (ix2 r d)))
  simp only [h]

end Cert.Sage

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.LibWholeBuffer.lean ====
/-
  Whole-buffer accesses, over any shape: a store through the rectangle that starts at zero and has the buffer's own
  extents leaves its payload as the buffer's contents, whatever the buffer held; a load through that rectangle reads
  the contents; and a load of what one such store left reads that store's payload.
-/
import Idealize.ShloMosaic.Lib.Pipeline.FrameBody
import Idealize.ShloMosaic.Lib.Pipeline.Value

noncomputable section

namespace Idealize.ShloMosaic.WholeBuffer

open Idealize.ShloMosaic

variable {sig : RefSig} {κ : Kind} {sp : Space} {S : Shape} {e : EltTy} {Val : EltTy → Type} [∀ e, Nonempty (Val e)]

/-- One store through the whole-buffer rectangle, whatever the buffer held: the contents read back are the payload. -/
theorem read_store (v : View sig κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero hz inb y⟩),
    View.canon_unit_zero hz]

/-- A load through the whole-buffer rectangle reads the contents. -/
theorem load (v : View sig κ sp S e) (f : v.ty.Contents Val) (X : S.Idx → Val e) (hf : v.read Val f = X)
    {off : Fin S.rank → Nat} (hz : off = fun _ => 0) (inb : ∀ a, off a + S.size a ≤ S.size a) :
    v.readAt Val (Rect.unit off S.size inb).toLoadRect f = X := by
  rw [View.readAt_eq_ld, hf, View.ld_unit_zero hz]

/-- A load through it of what one store through it left reads that store's payload. -/
theorem load_store (v : View sig κ sp S e) {off : Fin S.rank → Nat} (hz : off = fun _ => 0)
    (inb : ∀ a, off a + S.size a ≤ S.size a) (w : S.Idx → Val e) :
    v.readCov [(⟨Rect.unit off S.size inb, w⟩ : View.Piece Val S e)] (Rect.unit off S.size inb).toLoadRect = w :=
  View.readCov_unit_zero v hz inb w

/-- The two-coordinate zero offset, however it is spelt. -/
theorem zero2 : (![0, 0] : Fin 2 → Nat) = fun _ => 0 := funext fun a => by fin_cases a <;> rfl

end Idealize.ShloMosaic.WholeBuffer

end
-- ==== Proof.KernelFirst.lean ====
/-
  The first pallas_call, read as one function of the arrays it finds.

  The call runs over 25 grid points; point `t` stages rows `4000·t … 4000·t + 3999` of the node features `X`, of the
  neighbour sums `S` and of the reciprocal-degree column `D`, and both weight halves whole, and writes back rows
  `4000·t …` of the result. Entry `(p, q)` of a block is the clamp at zero of the blocked layer form over row `p` of
  the staged rows (`pay_apply`), which depends on that row only; so what point `t` writes back is block `t` of the
  whole-array function `hiddenOf X S D Wt Wb` (`flushed_eq`), the 25 blocks tile the 100000 rows (`cover`), and the
  result array ends holding that function (`final`). All of it holds whatever the five arrays contain when the call is
  entered.
-/
import proofs.«164352_j27324581937608_2_alg».proof.Proof.Gen.KernelIdeal.Frame
import proofs.«164352_j27324581937608_2_alg».proof.Proof.Sage
import proofs.«164352_j27324581937608_2_alg».proof.Proof.LibRowMax
import proofs.«164352_j27324581937608_2_alg».proof.Proof.LibColumn
import proofs.«164352_j27324581937608_2_alg».proof.Proof.LibWholeBuffer
import Idealize.ShloMosaic.Lib.Pipeline.Value
import Idealize.ShloMosaic.Lib.ValueIdx

set_option maxRecDepth 16384

noncomputable section

namespace Cert.KernelIdeal.First

open Cert.KernelIdeal Cert.KernelIdeal.Gen Idealize.ShloMosaic Idealize.ShloMosaic.TcCoe Idealize.SL.Sem
open Idealize.ShloMosaic.ValueIdx Idealize.ShloMosaic.WholeBuffer Cert.Sage Cert.LibRowMax Cert.LibColumn
open Idealize.ShloMosaic.Pipeline (Dat)

/-- The first layer in its blocked form, over whole arrays: the clamp at zero of `halves`. -/
def hiddenOf {a : ℕ} (X S : Mat a 128) (D : Mat a 1) (Wt Wb : Mat 128 128) : Mat a 128 :=
  fun i => max (halves X S D Wt Wb (i 0) (i 1)) zero

/-- The body's stored value at `(p, q)`: both matrix-unit products into zero accumulators are plain sums of 128
    products (the format changes are the identity on extended reals), the reciprocal column is spread across the
    lanes, and the clamp is the maximum with zero. -/
theorem pay_apply (x0 x1 : Vec Ideal S4000x128 .f32) (x2 : Vec Ideal S4000x1 .f32) (x3 x4 : Vec Ideal S128x128 .f32)
    (p : Fin 4000) (q : Fin 128) :
    k0_pay1 (F := Ideal) x0 x1 x2 x3 x4 (ix2 p q) = hiddenOf x0 x1 x2 x3 x4 (ix2 p q) := by
  unfold k0_pay1
  simp only [shapeCast_self]
  show max (_ + _) _ = max (halves x0 x1 x2 x3 x4 p q) zero
  unfold halves
  refine congrArg₂ max (congrArg₂ (· + ·) ?_ ?_) rfl
  · exact matmul_plain_apply _ none x0 x3 p q
  · refine Eq.trans (b := ∑ e : Fin 128,
        (x1 (ix2 p e) * broadcastTo S4000x128 x2 Gen.broadcasts_S4000x1_S4000x128 (ix2 p e)) * x4 (ix2 e q)) ?_ ?_
    · exact matmul_plain_apply _ none _ _ p q
    · refine Finset.sum_congr rfl fun e _ => ?_
      rw [broadcastTo_a1_ab_apply]

/-- A block's entry and the whole arrays' entry agree when the block's row holds the arrays' row (variables of the
    literal block and array shapes; the coordinates tied by hypotheses). -/
theorem block_eq (X S : Mat 100000 128) (D : Mat 100000 1) (Wt Wb : Mat 128 128)
    (x0 x1 : Vec Ideal S4000x128 .f32) (x2 : Vec Ideal S4000x1 .f32) (x3 x4 : Vec Ideal S128x128 .f32)
    (j : S4000x128.Idx) (i : S100000x128.Idx) (hi : (i 1).val = (j 1).val)
    (hx : ∀ e : Fin 128, x0 (ix2 (j 0) e) = X (ix2 (i 0) e)) (hs : ∀ e : Fin 128, x1 (ix2 (j 0) e) = S (ix2 (i 0) e))
    (hd : x2 (ix2 (j 0) (0 : Fin 1)) = D (ix2 (i 0) (0 : Fin 1)))
    (ht : ∀ (e : Fin 128) (c : Fin 128), x3 (ix2 e c) = Wt (ix2 e c))
    (hb : ∀ (e : Fin 128) (c : Fin 128), x4 (ix2 e c) = Wb (ix2 e c)) :
    k0_pay1 (F := Ideal) x0 x1 x2 x3 x4 j = hiddenOf X S D Wt Wb i := by
  obtain ⟨p, q, rfl⟩ : ∃ (p : Fin 4000) (q : Fin 128), j = ix2 p q := ⟨j 0, j 1, eq_ix2 j⟩
  obtain ⟨r, c, rfl⟩ : ∃ (r : Fin 100000) (c : Fin 128), i = ix2 r c := ⟨i 0, i 1, eq_ix2 i⟩
  have hc : c = q := Fin.ext hi
  subst hc
  rw [pay_apply]
  show max (halves x0 x1 x2 x3 x4 p c) zero = max (halves X S D Wt Wb r c) zero
  rw [halves_congr x0 x1 x2 X S D x3 x4 Wt Wb p r c hx hs hd (fun e => ht e c) (fun e => hb e c)]

/-! ## From blocks to the array -/

section Array

variable (V : (c : Dev nD) → (b : Ref sig .tc) → Buf (Elt Ideal) ((c : Thread nD τ).loc b))

/-- The printed index maps over the grid: the row-blocked windows sit at block `t`, the weights at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the first layer of the arrays the call finds. -/
theorem flushed_eq (c : Dev nD) (t : Fin cfg0.N) :
    (dat0 V c).flushed 5 t = ((cfg0.win 5).blk t).view.read (Elt Ideal)
      (hiddenOf (V c main_arg0) (V c main_v22) (V c main_v12) (V c main_v0) (V c main_v1)) := by
  show (cfg0.win 5).cut (grid0.coords t) ((dat0 V c).after 5 t) = _
  rw [after0_5]
  unfold out0_5
  rw [View.canon_unit_zero zero2]
  simp only [View.ld_unit_zero (S := S4000x128) zero2, View.ld_unit_zero (S := S4000x1) zero2,
    View.ld_unit_zero (S := S128x128) zero2]
  obtain ⟨a0, a1, b0, b1, c0, c1, d0, d1, e0, e1, f0, f1⟩ := idx_facts t
  funext j
  have hj0 : (j 0).val < 4000 := (j 0).isLt
  have hj1 : (j 1).val < 128 := (j 1).isLt
  show k0_pay1 (F := Ideal) (iblk0 V c 0 t) (iblk0 V c 1 t) (iblk0 V c 2 t) (iblk0 V c 3 t) (iblk0 V c 4 t) j
    = hiddenOf (V c main_arg0) (V c main_v22) (V c main_v12) (V c main_v0) (V c main_v1)
        (((cfg0.win 5).blk t).view.emb j)
  refine block_eq (V c main_arg0) (V c main_v22) (V c main_v12) (V c main_v0) (V c main_v1)
    (iblk0 V c 0 t) (iblk0 V c 1 t) (iblk0 V c 2 t) (iblk0 V c 3 t) (iblk0 V c 4 t) j
    (((cfg0.win 5).blk t).view.emb j) ?_ ?_ ?_ ?_ ?_ ?_
  · show win0_5.index t (1 : Fin 2) * 128 + 1 * (j 1).val = (j 1).val
    omega
  · intro e
    show V c main_arg0 (((cfg0.win 0).blk t).view.emb (ix2 (j 0) e)) = V c main_arg0 (ix2 ((((cfg0.win 5).blk t).view.emb j) 0) e)
    refine congrArg (V c main_arg0) (funext fun a => Fin.ext ?_)
    match a with
    | ⟨0, _⟩ => show win0_0.index t (0 : Fin 2) * 4000 + 1 * (j 0).val = win0_5.index t (0 : Fin 2) * 4000 + 1 * (j 0).val; omega
    | ⟨1, _⟩ => show win0_0.index t (1 : Fin 2) * 128 + 1 * e.val = e.val; omega
  · intro e
    show V c main_v22 (((cfg0.win 1).blk t).view.emb (ix2 (j 0) e)) = V c main_v22 (ix2 ((((cfg0.win 5).blk t).view.emb j) 0) e)
    refine congrArg (V c main_v22) (funext fun a => Fin.ext ?_)
    match a with
    | ⟨0, _⟩ => show win0_1.index t (0 : Fin 2) * 4000 + 1 * (j 0).val = win0_5.index t (0 : Fin 2) * 4000 + 1 * (j 0).val; omega
    | ⟨1, _⟩ => show win0_1.index t (1 : Fin 2) * 128 + 1 * e.val = e.val; omega
  · show V c main_v12 (((cfg0.win 2).blk t).view.emb (ix2 (j 0) (0 : Fin 1))) = V c main_v12 (ix2 ((((cfg0.win 5).blk t).view.emb j) 0) (0 : Fin 1))
    refine congrArg (V c main_v12) (funext fun a => Fin.ext ?_)
    match a with
    | ⟨0, _⟩ => show win0_2.index t (0 : Fin 2) * 4000 + 1 * (j 0).val = win0_5.index t (0 : Fin 2) * 4000 + 1 * (j 0).val; omega
    | ⟨1, _⟩ => show win0_2.index t (1 : Fin 2) * 1 + 1 * 0 = 0; omega
  · intro e q
    show V c main_v0 (((cfg0.win 3).blk t).view.emb (ix2 e q)) = V c main_v0 (ix2 e q)
    refine congrArg (V c main_v0) (funext fun a => Fin.ext ?_)
    match a with
    | ⟨0, _⟩ => show win0_3.index t (0 : Fin 2) * 128 + 1 * e.val = e.val; omega
    | ⟨1, _⟩ => show win0_3.index t (1 : Fin 2) * 128 + 1 * q.val = q.val; omega
  · intro e q
    show V c main_v1 (((cfg0.win 4).blk t).view.emb (ix2 e q)) = V c main_v1 (ix2 e q)
    refine congrArg (V c main_v1) (funext fun a => Fin.ext ?_)
    match a with
    | ⟨0, _⟩ => show win0_4.index t (0 : Fin 2) * 128 + 1 * e.val = e.val; omega
    | ⟨1, _⟩ => show win0_4.index t (1 : Fin 2) * 128 + 1 * q.val = q.val; omega

/-- An index of the result array is in point `t`'s block iff each coordinate is in the block's range on its axis. -/
theorem mem_blk (t : Fin cfg0.N) (i : S100000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v23).slice (win0_5.rect t)).set ↔ _
  rw [View.set_slice_whole, Rect.mem_set_unit]
  exact Iff.rfl

/-- The 25 blocks of 4000 rows tile the 100000 rows: row `r` is in the block of point `r / 4000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : (i 0).val / 4000 < cfg0.N := lt_of_lt_of_eq (by omega : (i 0).val / 4000 < 25) N_0.symm
  refine ⟨⟨(i 0).val / 4000, hN⟩, flush0_5 _, ?_⟩
  obtain ⟨-, -, -, -, -, -, -, -, -, -, f0, f1⟩ := idx_facts ⟨(i 0).val / 4000, hN⟩
  have f0' : win0_5.index ⟨(i 0).val / 4000, hN⟩ (0 : Fin 2) = (i 0).val / 4000 := f0
  rw [mem_blk]
  intro a
  match a with
  | ⟨0, _⟩ =>
    show win0_5.index ⟨(i 0).val / 4000, hN⟩ (0 : Fin 2) * 4000 ≤ (i 0).val
      ∧ (i 0).val < win0_5.index ⟨(i 0).val / 4000, hN⟩ (0 : Fin 2) * 4000 + 4000
    omega
  | ⟨1, _⟩ =>
    show win0_5.index ⟨(i 0).val / 4000, hN⟩ (1 : Fin 2) * 128 ≤ (i 1).val
      ∧ (i 1).val < win0_5.index ⟨(i 0).val / 4000, hN⟩ (1 : Fin 2) * 128 + 128
    omega

/-- The result array after the call: the first layer of the five arrays the call found. -/
theorem final (c : Dev nD) :
    (dat0 V c).arrAt 5 cfg0.N
      = hiddenOf (V c main_arg0) (V c main_v22) (V c main_v12) (V c main_v0) (V c main_v1) :=
  (dat0 V c).arrAt_eq_of_cover 5 _ (fun t _ => flushed_eq V c t) (cover)

end Array

end Cert.KernelIdeal.First

end
-- ==== Proof.LibLastAxis.lean ====
/-
  Two general facts over the extended reals, for any extents.

  * `max_last_apply`: a vector maximum of an `[a, b]` matrix along its LAST axis, read at row `p`, is the fold of
    `max` from the accumulator's value over the `b` lanes of that row (the companion of the last-axis sum and of
    the first-axis maximum).
  * `sum_mul_coe`: a finite sum of extended reals multiplied by a nonnegative REAL is the sum of the products,
    whatever the summands are — infinities of either sign included — because multiplication by a nonnegative
    finite factor distributes over every sum of two extended reals. It is what lets a positive scale move
    across a contraction without any finiteness of the operands.
-/
import Idealize.ShloMosaic.PureOps.Ideal.Laws
import Idealize.ShloMosaic.Lib.ValueIdx

noncomputable section

namespace Cert.LibLastAxis

open Idealize.ShloMosaic Idealize.ShloMosaic.ValueIdx

/-- A vector maximum along the last axis of a matrix, at row `p`: the fold of `max` from the accumulator's value
    over the lanes. -/
theorem max_last_apply {a b : ℕ} {φ : FTy} (x : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ x acc h hφ hacc (ix1 p)
      = (Finset.univ : Finset (Fin b)).fold max (Ideal.ofBits φ acc) fun k => x (ix2 p k) := by
  refine (Ideal.multiReduction_maximumf_single x acc h hφ hacc (ix1 p)).trans ?_
  refine congrArg (Finset.fold max (Ideal.ofBits φ acc) · Finset.univ) (funext fun k => ?_)
  exact congrArg x (funext fun c => Fin.ext (by match c with | ⟨0, _⟩ => rfl | ⟨1, _⟩ => rfl))

/-- A sum of extended reals times a nonnegative real is the sum of the products. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

end Cert.LibLastAxis

end
-- ==== Proof.LibLogSoftmax.lean ====
/-
  A row-wise log-softmax of an `[a, b]` matrix along its last axis, read at an entry given by its coordinates, on the
  extended reals, for any extents, in the two spellings programs print:

      (x_{p q} − m_p) − log Σ_d exp (x_{p d} − m_p),     m_p the fold of `max` over row `p` from minus infinity.

  * The vector unit's: the row maximum and the row sum are one-axis reductions kept as a column (`[a] → [a, 1]`) and
    broadcast across the lanes (`vector_apply`).
  * The host's: the row maximum is a reduce from minus infinity, joined once more with minus infinity (which changes
    nothing), the row sum a reduce from zero; both are placed as a column and broadcast (`host_apply`).
  Also the keepdims forms used on the way: a vector placed as a column and spread over the lanes reads the vector
  at the row (`keep_vector_apply`, `keep_host_apply`).
-/
import proofs.«164352_j27324581937608_2_alg».proof.Proof.LibColumn
import proofs.«164352_j27324581937608_2_alg».proof.Proof.LibLastAxis
import proofs.«164352_j27324581937608_2_alg».proof.Proof.LibRowMax
import Idealize.ShloMosaic.Lib.ValueLayout
import Idealize.ShloMosaic.Lib.Pipeline.Value
import Idealize.ShloMosaic.PureOps.Ideal.Laws

noncomputable section

namespace Cert.LibLogSoftmax

open Idealize.ShloMosaic Idealize.ShloMosaic.ValueIdx Cert.LibColumn Cert.LibLastAxis Cert.LibRowMax

variable {α : Type} {a b : ℕ}

/-- A vector `[a]` cast to a column and broadcast over `b` lanes reads, at `(p, q)`, the vector at `p`. -/
theorem keep_vector_apply (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (q : Fin b) :
    broadcastTo ⟨2, ![a, b]⟩ (shapeCast ⟨2, ![a, 1]⟩ v hc) hb (ix2 p q) = v (ix1 p) :=
  (broadcastTo_a1_ab_apply _ hb p q).trans (shapeCast_a_a1_apply v hc p 0)

/-- The host's `[a]` vector placed as a column `[a, 1]` reads, at `(p, u)`, the vector at `p`. -/
theorem broadcastInDim_a_a1_apply (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's vector placed as a column and broadcast over `b` lanes reads, at `(p, q)`, the vector at `p`. -/
theorem keep_host_apply (v : (⟨1, ![a]⟩ : Shape).Idx → α) (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) :=
  (broadcastInDim_a1_ab_apply _ h2 p q).trans (broadcastInDim_a_a1_apply v h1 p 0)

/-- The maximum from minus infinity. -/
theorem max_negInf (y : EReal) : max (Ideal.ofBits .f32 0xFF800000#32) y = y := by
  simp [Ideal.ofBits, Ideal.ieee]

/-- The vector unit's log-softmax along the last axis, at `(p, q)`. -/
theorem vector_apply (x : FVec Ideal ⟨2, ![a, b]⟩ .f32) (hr : (⟨2, ![a, b]⟩ : Shape).Reduces [1] ⟨1, ![a]⟩)
    (hφ : FKind.Formats .f32) (hmax : (0xFF800000#32 : BitVec 32) = FKind.maximumf.neutral .f32 hφ)
    (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    subf (subf x (broadcastTo ⟨2, ![a, b]⟩ (shapeCast ⟨2, ![a, 1]⟩
          (multiReduction .maximumf [1] ⟨1, ![a]⟩ x 0xFF800000#32 hr hφ hmax) hc) hb))
      (broadcastTo ⟨2, ![a, b]⟩ (log (shapeCast ⟨2, ![a, 1]⟩
          (multiReduction .add [1] ⟨1, ![a]⟩
            (exp (subf x (broadcastTo ⟨2, ![a, b]⟩ (shapeCast ⟨2, ![a, 1]⟩
              (multiReduction .maximumf [1] ⟨1, ![a]⟩ x 0xFF800000#32 hr hφ hmax) hc) hb)))
            0x00000000#32 hr hφ hadd) hc)) hb) (ix2 p q)
    = (x (ix2 p q) - (Finset.univ : Finset (Fin b)).fold max (Ideal.ofBits .f32 0xFF800000#32) fun d => x (ix2 p d))
      - Ideal.log (∑ d : Fin b, Ideal.exp (x (ix2 p d)
          - (Finset.univ : Finset (Fin b)).fold max (Ideal.ofBits .f32 0xFF800000#32) fun d => x (ix2 p d))) := by
  have e1 : ∀ d : Fin b, broadcastTo ⟨2, ![a, b]⟩ (shapeCast ⟨2, ![a, 1]⟩
        (multiReduction .maximumf [1] ⟨1, ![a]⟩ x 0xFF800000#32 hr hφ hmax) hc) hb (ix2 p d)
      = (Finset.univ : Finset (Fin b)).fold max (Ideal.ofBits .f32 0xFF800000#32) fun d => x (ix2 p d) := fun d =>
    (keep_vector_apply _ hc hb p d).trans (max_last_apply x 0xFF800000#32 hr hφ hmax p)
  have e2 : broadcastTo ⟨2, ![a, b]⟩ (log (shapeCast ⟨2, ![a, 1]⟩
        (multiReduction .add [1] ⟨1, ![a]⟩
          (exp (subf x (broadcastTo ⟨2, ![a, b]⟩ (shapeCast ⟨2, ![a, 1]⟩
            (multiReduction .maximumf [1] ⟨1, ![a]⟩ x 0xFF800000#32 hr hφ hmax) hc) hb)))
          0x00000000#32 hr hφ hadd) hc)) hb (ix2 p q)
      = Ideal.log (∑ d : Fin b, Ideal.exp (x (ix2 p d)
          - (Finset.univ : Finset (Fin b)).fold max (Ideal.ofBits .f32 0xFF800000#32) fun d => x (ix2 p d))) := by
    refine (broadcastTo_a1_ab_apply _ hb p q).trans ?_
    show Ideal.log (shapeCast ⟨2, ![a, 1]⟩ _ hc (ix2 p (0 : Fin 1))) = _
    rw [shapeCast_a_a1_apply _ hc p 0]
    refine congrArg Ideal.log ((sum_last_apply _ hr hφ hadd p).trans (Finset.sum_congr rfl fun d _ => ?_))
    show Ideal.exp (x (ix2 p d) - _) = _
    rw [e1 d]
  show (x (ix2 p q) - _) - _ = _
  rw [e1 q, e2]

/-- The host's log-softmax along the last axis, at `(p, q)`. -/
theorem host_apply (x : FVec Ideal ⟨2, ![a, b]⟩ .f32) (hr' : (⟨2, ![a, b]⟩ : Shape).ReducesTo [1] ⟨1, ![a]⟩)
    (hr : (⟨2, ![a, b]⟩ : Shape).Reduces [1] ⟨1, ![a]⟩) (hu : 0 < (⟨0, ![]⟩ : Shape).numel)
    (h0 : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    subf (subf x (broadcastInDim ⟨2, ![a, b]⟩ ![0, 1] h2 (broadcastInDim ⟨2, ![a, 1]⟩ ![0] h1
          (maximumf (broadcastInDim ⟨1, ![a]⟩ ![] h0 (constant (F := Ideal) ⟨0, ![]⟩ .f32 0xFF800000#32))
            (Host.reduce FloatOps.maximumf x (constant (F := Ideal) ⟨0, ![]⟩ .f32 0xFF800000#32) hr' hu)))))
      (broadcastInDim ⟨2, ![a, b]⟩ ![0, 1] h2 (Host.log (broadcastInDim ⟨2, ![a, 1]⟩ ![0] h1
          (Host.reduceAdd (Host.exp (subf x (broadcastInDim ⟨2, ![a, b]⟩ ![0, 1] h2 (broadcastInDim ⟨2, ![a, 1]⟩ ![0] h1
            (maximumf (broadcastInDim ⟨1, ![a]⟩ ![] h0 (constant (F := Ideal) ⟨0, ![]⟩ .f32 0xFF800000#32))
              (Host.reduce FloatOps.maximumf x (constant (F := Ideal) ⟨0, ![]⟩ .f32 0xFF800000#32) hr' hu))))))
            (constant (F := Ideal) ⟨0, ![]⟩ .f32 0x00000000#32) hr' hu)))) (ix2 p q)
    = (x (ix2 p q) - (Finset.univ : Finset (Fin b)).fold max (Ideal.ofBits .f32 0xFF800000#32) fun d => x (ix2 p d))
      - Ideal.log (∑ d : Fin b, Ideal.exp (x (ix2 p d)
          - (Finset.univ : Finset (Fin b)).fold max (Ideal.ofBits .f32 0xFF800000#32) fun d => x (ix2 p d))) := by
  have hlift : ∀ d : Fin b, hr.lift (ix1 p) d = ix2 p d := fun d =>
    funext fun c => Fin.ext (by match c with | ⟨0, _⟩ => rfl | ⟨1, _⟩ => rfl)
  have em : maximumf (broadcastInDim ⟨1, ![a]⟩ ![] h0 (constant (F := Ideal) ⟨0, ![]⟩ .f32 0xFF800000#32))
        (Host.reduce FloatOps.maximumf x (constant (F := Ideal) ⟨0, ![]⟩ .f32 0xFF800000#32) hr' hu) (ix1 p)
      = (Finset.univ : Finset (Fin b)).fold max (Ideal.ofBits .f32 0xFF800000#32) fun d => x (ix2 p d) := by
    show max (broadcastInDim ⟨1, ![a]⟩ ![] h0 (constant (F := Ideal) ⟨0, ![]⟩ .f32 0xFF800000#32) (ix1 p))
        (Host.reduce FloatOps.maximumf x (constant (F := Ideal) ⟨0, ![]⟩ .f32 0xFF800000#32) hr' hu (ix1 p)) = _
    rw [broadcastInDim_apply _ h0 _ (ix1 p) ix0 (fun ax => ax.elim0),
      Host.reduce_eq_fold_single FloatOps.maximumf x _ hr' hr hu (ix1 p)]
    show max (Ideal.ofBits .f32 0xFF800000#32)
        ((Finset.univ : Finset (Fin b)).fold max (Ideal.ofBits .f32 0xFF800000#32) (x ∘ hr.lift (ix1 p))) = _
    rw [max_negInf]
    exact congrArg (Finset.fold max (Ideal.ofBits .f32 0xFF800000#32) · Finset.univ) (funext fun d => congrArg x (hlift d))
  have e1 : ∀ d : Fin b, broadcastInDim ⟨2, ![a, b]⟩ ![0, 1] h2 (broadcastInDim ⟨2, ![a, 1]⟩ ![0] h1
        (maximumf (broadcastInDim ⟨1, ![a]⟩ ![] h0 (constant (F := Ideal) ⟨0, ![]⟩ .f32 0xFF800000#32))
          (Host.reduce FloatOps.maximumf x (constant (F := Ideal) ⟨0, ![]⟩ .f32 0xFF800000#32) hr' hu))) (ix2 p d)
      = (Finset.univ : Finset (Fin b)).fold max (Ideal.ofBits .f32 0xFF800000#32) fun d => x (ix2 p d) := fun d =>
    (keep_host_apply _ h1 h2 p d).trans em
  have e2 : broadcastInDim ⟨2, ![a, b]⟩ ![0, 1] h2 (Host.log (broadcastInDim ⟨2, ![a, 1]⟩ ![0] h1
        (Host.reduceAdd (Host.exp (subf x (broadcastInDim ⟨2, ![a, b]⟩ ![0, 1] h2 (broadcastInDim ⟨2, ![a, 1]⟩ ![0] h1
          (maximumf (broadcastInDim ⟨1, ![a]⟩ ![] h0 (constant (F := Ideal) ⟨0, ![]⟩ .f32 0xFF800000#32))
            (Host.reduce FloatOps.maximumf x (constant (F := Ideal) ⟨0, ![]⟩ .f32 0xFF800000#32) hr' hu))))))
          (constant (F := Ideal) ⟨0, ![]⟩ .f32 0x00000000#32) hr' hu))) (ix2 p q)
      = Ideal.log (∑ d : Fin b, Ideal.exp (x (ix2 p d)
          - (Finset.univ : Finset (Fin b)).fold max (Ideal.ofBits .f32 0xFF800000#32) fun d => x (ix2 p d))) := by
    refine (broadcastInDim_a1_ab_apply _ h2 p q).trans ?_
    refine (congrArg Ideal.log (broadcastInDim_a_a1_apply _ h1 p 0)).trans ?_
    refine congrArg Ideal.log ?_
    simp only [Host.reduceAdd, Ideal.hostReduceAdd_def]
    rw [Ideal.hostReduceAdd_single hr' hr]
    show Ideal.ofBits .f32 0x00000000#32 + _ = _
    rw [Ideal.ofBits_zero_f32, zero_add]
    refine Finset.sum_congr rfl fun d _ => ?_
    rw [hlift d]
    show Ideal.exp (x (ix2 p d) - _) = _
    rw [e1 d]
  show (x (ix2 p q) - _) - _ = _
  rw [e1 q, e2]

end Cert.LibLogSoftmax

end
-- ==== Proof.KernelSecond.lean ====
/-
  The second pallas_call, read as one function of the arrays it finds.

  Its grid and windows are the first call's (25 points, rows `4000·t …` of the hidden features, of their neighbour sums
  and of the reciprocal-degree column; both halves of the second weight matrix whole), with 40 output columns. Entry
  `(p, q)` of a block is the row-wise log-softmax of the blocked layer form over row `p` (`pay_apply`): the vector
  unit's spelling — row maximum and row sum kept as columns and spread over the lanes — read at an entry. A row of
  it depends on that row of the inputs only, so point `t` writes back block `t` of `outOf X S D Wt Wb`
  (`flushed_eq`), the blocks tile the rows (`cover`), and the result array ends holding that function (`final`).
-/
import proofs.«164352_j27324581937608_2_alg».proof.Proof.Gen.KernelIdeal.Frame
import proofs.«164352_j27324581937608_2_alg».proof.Proof.Sage
import proofs.«164352_j27324581937608_2_alg».proof.Proof.LibRowMax
import proofs.«164352_j27324581937608_2_alg».proof.Proof.LibColumn
import proofs.«164352_j27324581937608_2_alg».proof.Proof.LibLogSoftmax
import proofs.«164352_j27324581937608_2_alg».proof.Proof.LibWholeBuffer
import Idealize.ShloMosaic.Lib.Pipeline.Value
import Idealize.ShloMosaic.Lib.ValueIdx

set_option maxRecDepth 16384

noncomputable section

namespace Cert.KernelIdeal.Second

open Cert.KernelIdeal Cert.KernelIdeal.Gen Idealize.ShloMosaic Idealize.ShloMosaic.TcCoe Idealize.SL.Sem
open Idealize.ShloMosaic.ValueIdx Idealize.ShloMosaic.WholeBuffer Cert.Sage Cert.LibRowMax Cert.LibColumn
open Idealize.ShloMosaic.Pipeline (Dat)

/-- The second layer in its blocked form, over whole arrays: the row-wise log-softmax of `halves`. -/
def outOf {a : ℕ} (X S : Mat a 128) (D : Mat a 1) (Wt Wb : Mat 128 40) : Mat a 40 :=
  logSoftmax (halvesMat X S D Wt Wb)

/-- The body's stored value at `(p, q)`: the vector unit's log-softmax of the sum of the two matrix-unit products,
    each a plain sum of 128 products. -/
theorem pay_apply (x0 x1 : Vec Ideal S4000x128 .f32) (x2 : Vec Ideal S4000x1 .f32) (x3 x4 : Vec Ideal S128x40 .f32)
    (p : Fin 4000) (q : Fin 40) :
    k1_pay1 (F := Ideal) x0 x1 x2 x3 x4 (ix2 p q) = outOf x0 x1 x2 x3 x4 (ix2 p q) := by
  unfold k1_pay1
  simp only [shapeCast_self]
  refine (Cert.LibLogSoftmax.vector_apply _ _ _ _ _ _ _ p q).trans ?_
  refine logSoftmax_row _ (halvesMat x0 x1 x2 x3 x4) p p q (fun d => ?_)
  show _ + _ = halves x0 x1 x2 x3 x4 p d
  unfold halves
  refine congrArg₂ (· + ·) ?_ ?_
  · exact matmul_plain_apply _ none x0 x3 p d
  · refine Eq.trans (b := ∑ e : Fin 128,
        (x1 (ix2 p e) * broadcastTo S4000x128 x2 Gen.broadcasts_S4000x1_S4000x128 (ix2 p e)) * x4 (ix2 e d)) ?_ ?_
    · exact matmul_plain_apply _ none _ _ p d
    · refine Finset.sum_congr rfl fun e _ => ?_
      rw [broadcastTo_a1_ab_apply]

/-- A block's entry and the whole arrays' entry agree when the block's row holds the arrays' row. -/
theorem block_eq (X S : Mat 100000 128) (D : Mat 100000 1) (Wt Wb : Mat 128 40)
    (x0 x1 : Vec Ideal S4000x128 .f32) (x2 : Vec Ideal S4000x1 .f32) (x3 x4 : Vec Ideal S128x40 .f32)
    (j : S4000x40.Idx) (i : S100000x40.Idx) (hi : (i 1).val = (j 1).val)
    (hx : ∀ e : Fin 128, x0 (ix2 (j 0) e) = X (ix2 (i 0) e)) (hs : ∀ e : Fin 128, x1 (ix2 (j 0) e) = S (ix2 (i 0) e))
    (hd : x2 (ix2 (j 0) (0 : Fin 1)) = D (ix2 (i 0) (0 : Fin 1)))
    (ht : ∀ (e : Fin 128) (c : Fin 40), x3 (ix2 e c) = Wt (ix2 e c))
    (hb : ∀ (e : Fin 128) (c : Fin 40), x4 (ix2 e c) = Wb (ix2 e c)) :
    k1_pay1 (F := Ideal) x0 x1 x2 x3 x4 j = outOf X S D Wt Wb i := by
  obtain ⟨p, q, rfl⟩ : ∃ (p : Fin 4000) (q : Fin 40), j = ix2 p q := ⟨j 0, j 1, eq_ix2 j⟩
  obtain ⟨r, c, rfl⟩ : ∃ (r : Fin 100000) (c : Fin 40), i = ix2 r c := ⟨i 0, i 1, eq_ix2 i⟩
  have hc : c = q := Fin.ext hi
  subst hc
  rw [pay_apply]
  exact logSoftmax_row (halvesMat x0 x1 x2 x3 x4) (halvesMat X S D Wt Wb) p r c
    (fun d => halves_congr x0 x1 x2 X S D x3 x4 Wt Wb p r d hx hs hd (fun e => ht e d) (fun e => hb e d))

/-! ## From blocks to the array -/

section Array

variable (V : (c : Dev nD) → (b : Ref sig .tc) → Buf (Elt Ideal) ((c : Thread nD τ).loc b))

/-- The printed index maps over the grid: the row-blocked windows sit at block `t`, the weights at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the second layer of the arrays the call finds. -/
theorem flushed_eq (c : Dev nD) (t : Fin cfg1.N) :
    (dat1 V c).flushed 5 t = ((cfg1.win 5).blk t).view.read (Elt Ideal)
      (outOf (V c main_v23) (V c main_v33) (V c main_v12) (V c main_v2) (V c main_v3)) := by
  show (cfg1.win 5).cut (grid1.coords t) ((dat1 V c).after 5 t) = _
  rw [after1_5]
  unfold out1_5
  rw [View.canon_unit_zero zero2]
  simp only [View.ld_unit_zero (S := S4000x128) zero2, View.ld_unit_zero (S := S4000x1) zero2,
    View.ld_unit_zero (S := S128x40) zero2]
  obtain ⟨a0, a1, b0, b1, c0, c1, d0, d1, e0, e1, f0, f1⟩ := idx_facts t
  funext j
  have hj0 : (j 0).val < 4000 := (j 0).isLt
  have hj1 : (j 1).val < 40 := (j 1).isLt
  show k1_pay1 (F := Ideal) (iblk1 V c 0 t) (iblk1 V c 1 t) (iblk1 V c 2 t) (iblk1 V c 3 t) (iblk1 V c 4 t) j
    = outOf (V c main_v23) (V c main_v33) (V c main_v12) (V c main_v2) (V c main_v3)
        (((cfg1.win 5).blk t).view.emb j)
  refine block_eq (V c main_v23) (V c main_v33) (V c main_v12) (V c main_v2) (V c main_v3)
    (iblk1 V c 0 t) (iblk1 V c 1 t) (iblk1 V c 2 t) (iblk1 V c 3 t) (iblk1 V c 4 t) j
    (((cfg1.win 5).blk t).view.emb j) ?_ ?_ ?_ ?_ ?_ ?_
  · show win1_5.index t (1 : Fin 2) * 40 + 1 * (j 1).val = (j 1).val
    omega
  · intro e
    show V c main_v23 (((cfg1.win 0).blk t).view.emb (ix2 (j 0) e)) = V c main_v23 (ix2 ((((cfg1.win 5).blk t).view.emb j) 0) e)
    refine congrArg (V c main_v23) (funext fun a => Fin.ext ?_)
    match a with
    | ⟨0, _⟩ => show win1_0.index t (0 : Fin 2) * 4000 + 1 * (j 0).val = win1_5.index t (0 : Fin 2) * 4000 + 1 * (j 0).val; omega
    | ⟨1, _⟩ => show win1_0.index t (1 : Fin 2) * 128 + 1 * e.val = e.val; omega
  · intro e
    show V c main_v33 (((cfg1.win 1).blk t).view.emb (ix2 (j 0) e)) = V c main_v33 (ix2 ((((cfg1.win 5).blk t).view.emb j) 0) e)
    refine congrArg (V c main_v33) (funext fun a => Fin.ext ?_)
    match a with
    | ⟨0, _⟩ => show win1_1.index t (0 : Fin 2) * 4000 + 1 * (j 0).val = win1_5.index t (0 : Fin 2) * 4000 + 1 * (j 0).val; omega
    | ⟨1, _⟩ => show win1_1.index t (1 : Fin 2) * 128 + 1 * e.val = e.val; omega
  · show V c main_v12 (((cfg1.win 2).blk t).view.emb (ix2 (j 0) (0 : Fin 1))) = V c main_v12 (ix2 ((((cfg1.win 5).blk t).view.emb j) 0) (0 : Fin 1))
    refine congrArg (V c main_v12) (funext fun a => Fin.ext ?_)
    match a with
    | ⟨0, _⟩ => show win1_2.index t (0 : Fin 2) * 4000 + 1 * (j 0).val = win1_5.index t (0 : Fin 2) * 4000 + 1 * (j 0).val; omega
    | ⟨1, _⟩ => show win1_2.index t (1 : Fin 2) * 1 + 1 * 0 = 0; omega
  · intro e q
    show V c main_v2 (((cfg1.win 3).blk t).view.emb (ix2 e q)) = V c main_v2 (ix2 e q)
    refine congrArg (V c main_v2) (funext fun a => Fin.ext ?_)
    match a with
    | ⟨0, _⟩ => show win1_3.index t (0 : Fin 2) * 128 + 1 * e.val = e.val; omega
    | ⟨1, _⟩ => show win1_3.index t (1 : Fin 2) * 40 + 1 * q.val = q.val; omega
  · intro e q
    show V c main_v3 (((cfg1.win 4).blk t).view.emb (ix2 e q)) = V c main_v3 (ix2 e q)
    refine congrArg (V c main_v3) (funext fun a => Fin.ext ?_)
    match a with
    | ⟨0, _⟩ => show win1_4.index t (0 : Fin 2) * 128 + 1 * e.val = e.val; omega
    | ⟨1, _⟩ => show win1_4.index t (1 : Fin 2) * 40 + 1 * q.val = q.val; omega

/-- An index of the result array is in point `t`'s block iff each coordinate is in the block's range on its axis. -/
theorem mem_blk (t : Fin cfg1.N) (i : S100000x40.Idx) :
    i ∈ ((cfg1.win 5).blk t).view.set ↔ ∀ a : Fin 2, win1_5.index t a * S4000x40.size a ≤ (i a).val
      ∧ (i a).val < win1_5.index t a * S4000x40.size a + S4000x40.size a := by
  show i ∈ ((View.whole main_v34).slice (win1_5.rect t)).set ↔ _
  rw [View.set_slice_whole, Rect.mem_set_unit]
  exact Iff.rfl

/-- The 25 blocks of 4000 rows tile the 100000 rows: row `r` is in the block of point `r / 4000`. -/
theorem cover (i : S100000x40.Idx) :
    ∃ t : Fin cfg1.N, (cfg1.win 5).flush t = true ∧ i ∈ ((cfg1.win 5).blk t).view.set := by
  have hi0 : (i 0).val < 100000 := (i 0).isLt
  have hi1 : (i 1).val < 40 := (i 1).isLt
  have hN : (i 0).val / 4000 < cfg1.N := lt_of_lt_of_eq (by omega : (i 0).val / 4000 < 25) N_1.symm
  refine ⟨⟨(i 0).val / 4000, hN⟩, flush1_5 _, ?_⟩
  obtain ⟨-, -, -, -, -, -, -, -, -, -, f0, f1⟩ := idx_facts ⟨(i 0).val / 4000, hN⟩
  have f0' : win1_5.index ⟨(i 0).val / 4000, hN⟩ (0 : Fin 2) = (i 0).val / 4000 := f0
  rw [mem_blk]
  intro a
  match a with
  | ⟨0, _⟩ =>
    show win1_5.index ⟨(i 0).val / 4000, hN⟩ (0 : Fin 2) * 4000 ≤ (i 0).val
      ∧ (i 0).val < win1_5.index ⟨(i 0).val / 4000, hN⟩ (0 : Fin 2) * 4000 + 4000
    omega
  | ⟨1, _⟩ =>
    show win1_5.index ⟨(i 0).val / 4000, hN⟩ (1 : Fin 2) * 40 ≤ (i 1).val
      ∧ (i 1).val < win1_5.index ⟨(i 0).val / 4000, hN⟩ (1 : Fin 2) * 40 + 40
    omega

/-- The result array after the call: the second layer of the five arrays the call found. -/
theorem final (c : Dev nD) :
    (dat1 V c).arrAt 5 cfg1.N
      = outOf (V c main_v23) (V c main_v33) (V c main_v12) (V c main_v2) (V c main_v3) :=
  (dat1 V c).arrAt_eq_of_cover 5 _ (fun t _ => flushed_eq V c t) (cover)

end Array

end Cert.KernelIdeal.Second

end
-- ==== Proof.KernelHost.lean ====
/-
  The arrays the two pallas_calls find, as functions of the launch memory.

  Before the first call the host computes, from the edge lists `src` and `dst`: the in-degree of every node (a
  scatter-add of ones at `dst` into zeros: `deg`), the reciprocal column `1 / max (deg, 1)` reshaped to `[n, 1]`
  (`recipOf deg`), the neighbour sums of the node features (the rows gathered at `src`, negative indices wrapped once, and
  scatter-added at `dst` into zeros: `agg`), and the two halves of each weight matrix. Between the two calls it
  computes the neighbour sums of the first call's result with the same operator. The gather and the scatter-add are
  never opened: both programs apply the same operator to the same operands.
-/
import proofs.«164352_j27324581937608_2_alg».proof.Proof.Gen.KernelIdeal.Frame
import proofs.«164352_j27324581937608_2_alg».proof.Proof.KernelFirst
import proofs.«164352_j27324581937608_2_alg».proof.Proof.KernelSecond
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo Cert.Sage
open Idealize.ShloMosaic.Pipeline (Dat)

/-- The neighbour sums of `x`: row `src e` of `x` (an index below zero wrapped by the number of nodes) added into row
    `dst e`, over all edges `e`, from zeros. -/
def agg (src dst : (⟨S1600000, .i32⟩ : BufTy).Contents (Elt Ideal)) (x : (⟨S100000x128, .f32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] Gen.bcast_S_S100000x128 (constant (F := Ideal) S_ .f32 0x00000000#32))
    (broadcastInDim S1600000x1 ![0] Gen.bcast_S1600000_S1600000x1_0 dst)
    (Host.gather gather_S100000x128_S1600000x1_S1600000x128_1_0_n_n_0_1_1128 x
      (broadcastInDim S1600000x1 ![0] Gen.bcast_S1600000_S1600000x1_0
        (select (cmpi .slt src (broadcastInDim S1600000 ![] Gen.bcast_S_S1600000 (constantI S_ 32 0#32)))
          (addi src (broadcastInDim S1600000 ![] Gen.bcast_S_S1600000 (constantI S_ 32 100000#32))) src)))

/-- The in-degrees: a one added at `dst e` for every edge `e`, from zeros. -/
def deg (dst : (⟨S1600000, .i32⟩ : BufTy).Contents (Elt Ideal)) : (⟨S100000, .f32⟩ : BufTy).Contents (Elt Ideal) :=
  Host.scatterAdd scatter_S100000_S1600000x1_S1600000_n_0_0_1
    (broadcastInDim S100000 ![] Gen.bcast_S_S100000 (constant (F := Ideal) S_ .f32 0x00000000#32))
    (broadcastInDim S1600000x1 ![0] Gen.bcast_S1600000_S1600000x1_0 dst)
    (broadcastInDim S1600000 ![] Gen.bcast_S_S1600000 (constant (F := Ideal) S_ .f32 0x3F800000#32))

/-- The reciprocal column of a degree vector `D`: `1 / max (D, 1)`, as `[n, 1]`. -/
def recipOf (D : FVec Ideal S100000 .f32) : (⟨S100000x1, .f32⟩ : BufTy).Contents (Elt Ideal) :=
  shapeCast S100000x1
    (Host.divf (broadcastInDim S100000 ![] Gen.bcast_S_S100000 (constant (F := Ideal) S_ .f32 0x3F800000#32))
      (maximumf D (broadcastInDim S100000 ![] Gen.bcast_S_S100000 (constant (F := Ideal) S_ .f32 0x3F800000#32))))
    Gen.shapeCasts_S100000_S100000x1

variable (m : (ℓ : Loc nD τ sig) → Buf (Elt Ideal) ℓ) (ρ : Dev nD → PrngReg) (c : Dev nD)

/-! ## What the first call finds -/

theorem first_x : V1 m ρ c main_arg0 = m ((c : Thread nD τ).loc main_arg0) := by
  show StableHlo.after hostOps0 (W0 m ρ c) (Proc.devRef .tc main_arg0) = _
  after_results_simp <;> rfl

set_option maxHeartbeats 4000000 in
theorem first_sums : V1 m ρ c main_v22
    = agg (m ((c : Thread nD τ).loc main_arg3)) (m ((c : Thread nD τ).loc main_arg4)) (m ((c : Thread nD τ).loc main_arg0)) := by
  show StableHlo.after hostOps0 (W0 m ρ c) (Proc.devRef .tc main_v22) = _
  after_results_simp <;> rfl

theorem first_recip : V1 m ρ c main_v12 = recipOf (deg (m ((c : Thread nD τ).loc main_arg4))) := by
  show StableHlo.after hostOps0 (W0 m ρ c) (Proc.devRef .tc main_v12) = _
  after_results_simp <;> rfl

theorem first_top : V1 m ρ c main_v0
    = extractStridedSlice S128x128 ![0, 0] (m ((c : Thread nD τ).loc main_arg1)) Gen.slices_S256x128_S128x128_0_0 := by
  show StableHlo.after hostOps0 (W0 m ρ c) (Proc.devRef .tc main_v0) = _
  after_results_simp <;> rfl

theorem first_bot : V1 m ρ c main_v1
    = extractStridedSlice S128x128 ![128, 0] (m ((c : Thread nD τ).loc main_arg1)) Gen.slices_S256x128_S128x128_128_0 := by
  show StableHlo.after hostOps0 (W0 m ρ c) (Proc.devRef .tc main_v1) = _
  after_results_simp <;> rfl

/-! ## What the first call leaves, and what the second call finds -/

/-- The first call's result in its blocked form, over the launch memory. -/
def hid : (⟨S100000x128, .f32⟩ : BufTy).Contents (Elt Ideal) :=
  First.hiddenOf (m ((c : Thread nD τ).loc main_arg0))
    (agg (m ((c : Thread nD τ).loc main_arg3)) (m ((c : Thread nD τ).loc main_arg4)) (m ((c : Thread nD τ).loc main_arg0)))
    (recipOf (deg (m ((c : Thread nD τ).loc main_arg4))))
    (extractStridedSlice S128x128 ![0, 0] (m ((c : Thread nD τ).loc main_arg1)) Gen.slices_S256x128_S128x128_0_0)
    (extractStridedSlice S128x128 ![128, 0] (m ((c : Thread nD τ).loc main_arg1)) Gen.slices_S256x128_S128x128_128_0)

/-- After the first call its result buffer holds the first layer. -/
theorem mid_hidden : W2 m ρ c (Proc.devRef .tc main_v23) = hid m c := by
  refine ((W2_arr m ρ c 5).trans (First.final (V1 m ρ) c)).trans ?_
  rw [first_x, first_sums, first_recip, first_top, first_bot]
  rfl

/-- The first call leaves the reciprocal column as it found it. -/
theorem mid_recip : W2 m ρ c (Proc.devRef .tc main_v12) = recipOf (deg (m ((c : Thread nD τ).loc main_arg4))) :=
  ((W2_arr m ρ c 2).trans (((dat0 (V1 m ρ) c).arrAt_in 2 rfl _).trans (A_eq0 (V1 m ρ) c 2))).trans (first_recip m ρ c)

theorem mid_src : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results_simp <;> rfl

theorem mid_dst : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  after_results_simp <;> rfl

theorem mid_top : W2 m ρ c (Proc.devRef .tc main_v2)
    = extractStridedSlice S128x40 ![0, 0] (m ((c : Thread nD τ).loc main_arg2)) Gen.slices_S256x40_S128x40_0_0 := by
  rw [W2_of_ne m ρ c main_v2 (by decide)]
  show StableHlo.after hostOps0 (W0 m ρ c) (Proc.devRef .tc main_v2) = _
  after_results_simp <;> rfl

theorem mid_bot : W2 m ρ c (Proc.devRef .tc main_v3)
    = extractStridedSlice S128x40 ![128, 0] (m ((c : Thread nD τ).loc main_arg2)) Gen.slices_S256x40_S128x40_128_0 := by
  rw [W2_of_ne m ρ c main_v3 (by decide)]
  show StableHlo.after hostOps0 (W0 m ρ c) (Proc.devRef .tc main_v3) = _
  after_results_simp <;> rfl

theorem second_x : V3 m ρ c main_v23 = hid m c := by
  show StableHlo.after hostOps1 (W2 m ρ c) (Proc.devRef .tc main_v23) = _
  after_results_simp
  exact mid_hidden m ρ c

theorem second_sums : V3 m ρ c main_v33
    = agg (m ((c : Thread nD τ).loc main_arg3)) (m ((c : Thread nD τ).loc main_arg4)) (hid m c) := by
  show StableHlo.after hostOps1 (W2 m ρ c) (Proc.devRef .tc main_v33) = _
  after_results_simp
  rw [mid_hidden, mid_src, mid_dst]
  rfl

theorem second_recip : V3 m ρ c main_v12 = recipOf (deg (m ((c : Thread nD τ).loc main_arg4))) := by
  show StableHlo.after hostOps1 (W2 m ρ c) (Proc.devRef .tc main_v12) = _
  after_results_simp
  exact mid_recip m ρ c

theorem second_top : V3 m ρ c main_v2
    = extractStridedSlice S128x40 ![0, 0] (m ((c : Thread nD τ).loc main_arg2)) Gen.slices_S256x40_S128x40_0_0 := by
  show StableHlo.after hostOps1 (W2 m ρ c) (Proc.devRef .tc main_v2) = _
  after_results_simp
  exact mid_top m ρ c

theorem second_bot : V3 m ρ c main_v3
    = extractStridedSlice S128x40 ![128, 0] (m ((c : Thread nD τ).loc main_arg2)) Gen.slices_S256x40_S128x40_128_0 := by
  show StableHlo.after hostOps1 (W2 m ρ c) (Proc.devRef .tc main_v3) = _
  after_results_simp
  exact mid_bot m ρ c

/-- The result buffer after the run: the second layer in its blocked form over the first. -/
theorem result_blocked : W4 m ρ c (Proc.devRef .tc main_v34)
    = Second.outOf (hid m c) (agg (m ((c : Thread nD τ).loc main_arg3)) (m ((c : Thread nD τ).loc main_arg4)) (hid m c))
        (recipOf (deg (m ((c : Thread nD τ).loc main_arg4))))
        (extractStridedSlice S128x40 ![0, 0] (m ((c : Thread nD τ).loc main_arg2)) Gen.slices_S256x40_S128x40_0_0)
        (extractStridedSlice S128x40 ![128, 0] (m ((c : Thread nD τ).loc main_arg2)) Gen.slices_S256x40_S128x40_128_0) := by
  refine ((W4_arr m ρ c 5).trans (Second.final (V3 m ρ) c)).trans ?_
  rw [second_x, second_sums, second_recip, second_top, second_bot]

end Cert.KernelIdeal.Whole

end
-- ==== Proof.KernelRun.lean ====
/-
  The idealized kernel program's run with its result named.

  @main is four segments: the host operations before the first pallas_call, that call, the host operations between
  the two calls, and the second call. Every weakly fair execution terminates without a fault, and in the final state
  each buffer holds the contents the segments leave one after the other: the result buffer what the second call's
  write-backs leave in it, the argument buffers what they were launched with. This is the frame's own launch over the
  segments, with the result buffer's final contents kept in the conclusion beside the arguments'.
-/
import proofs.«164352_j27324581937608_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_main : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Whole

end
-- ==== Proof.KernelValue.lean ====
/-
  The kernel program's result is the two-layer model.

  The reciprocal column of a degree vector `D` read at a row is `1 / max (D r, 1)`, and the two row slices of a 256-row weight matrix read
  at `(e, c)` are its rows `e` and `128 + e`. With these the blocked form of each layer is the layer itself
  (`Sage.halves_eq_pre`), so the first call's result is `hidden` and the second call's the log-softmax of `logits` over
  it: the model, with the host's neighbour-sum operator and in-degrees.
-/
import proofs.«164352_j27324581937608_2_alg».proof.Proof.KernelHost
import proofs.«164352_j27324581937608_2_alg».proof.Proof.KernelRun
import proofs.«164352_j27324581937608_2_alg».proof.Proof.LibColumn

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Sage Cert.LibColumn

-- the gather and the scatter-adds stay closed from here on: nothing below depends on what they compute
attribute [local irreducible] agg deg

/-- The reciprocal column of a degree vector at row `r`. -/
theorem recipOf_apply (D : FVec Ideal S100000 .f32) (r : Fin 100000) :
    recipOf D (ix2 r (0 : Fin 1)) = Ideal.div one (max (D (ix1 r)) one) := by
  refine (shapeCast_a_a1_apply (a := 100000) _ Gen.shapeCasts_S100000_S100000x1 r (0 : Fin 1)).trans ?_
  have hone : broadcastInDim S100000 ![] Gen.bcast_S_S100000 (constant (F := Ideal) S_ .f32 0x3F800000#32) (ix1 r) = one :=
    broadcastInDim_apply _ Gen.bcast_S_S100000 _ (ix1 r) ix0 (fun a => a.elim0)
  exact congrArg₂ Ideal.div hone (congrArg (max (D (ix1 r))) hone)

/-- The upper row slice of a 256-row matrix. -/
theorem slice_top {b : ℕ} (W : (⟨2, ![256, b]⟩ : Shape).Idx → EReal)
    (h : (⟨2, ![256, b]⟩ : Shape).Slices ![0, 0] ⟨2, ![128, b]⟩) (e : Fin 128) (c : Fin b) :
    extractStridedSlice ⟨2, ![128, b]⟩ ![0, 0] W h (ix2 e c) = W (ix2 (top e) c) :=
  extractStridedSlice_apply _ W h (ix2 e c) (ix2 (top e) c) fun a => by
    match a with
    | ⟨0, _⟩ => show e.val = 0 + e.val; omega
    | ⟨1, _⟩ => show c.val = 0 + c.val; omega

/-- The lower row slice of a 256-row matrix. -/
theorem slice_bot {b : ℕ} (W : (⟨2, ![256, b]⟩ : Shape).Idx → EReal)
    (h : (⟨2, ![256, b]⟩ : Shape).Slices ![128, 0] ⟨2, ![128, b]⟩) (e : Fin 128) (c : Fin b) :
    extractStridedSlice ⟨2, ![128, b]⟩ ![128, 0] W h (ix2 e c) = W (ix2 (bot e) c) :=
  extractStridedSlice_apply _ W h (ix2 e c) (ix2 (bot e) c) fun a => by
    match a with
    | ⟨0, _⟩ => show 128 + e.val = 128 + e.val; rfl
    | ⟨1, _⟩ => show c.val = 0 + c.val; omega

/-- The first layer's blocked form is the first layer. -/
theorem hidden_eq (x S : Mat 100000 128) (D : FVec Ideal S100000 .f32) (W : Mat 256 128) :
    First.hiddenOf x S (recipOf D) (extractStridedSlice S128x128 ![0, 0] W Gen.slices_S256x128_S128x128_0_0)
        (extractStridedSlice S128x128 ![128, 0] W Gen.slices_S256x128_S128x128_128_0)
      = hidden x S D W := by
  funext i
  obtain ⟨r, c, rfl⟩ : ∃ (r : Fin 100000) (c : Fin 128), i = ix2 r c := ⟨i 0, i 1, eq_ix2 i⟩
  show max (halves x S (recipOf D) _ _ r c) zero = max (pre x S D W r c) zero
  rw [halves_eq_pre x S D W (recipOf D) _ _ r c (recipOf_apply D r)
    (fun e => slice_top W _ e c) (fun e => slice_bot W _ e c)]

/-- The second layer's blocked form is the log-softmax of the second layer. -/
theorem out_eq (x S : Mat 100000 128) (D : FVec Ideal S100000 .f32) (W : Mat 256 40) :
    Second.outOf x S (recipOf D) (extractStridedSlice S128x40 ![0, 0] W Gen.slices_S256x40_S128x40_0_0)
        (extractStridedSlice S128x40 ![128, 0] W Gen.slices_S256x40_S128x40_128_0)
      = logSoftmax (logits x S D W) := by
  refine congrArg logSoftmax (funext fun i => ?_)
  obtain ⟨r, c, rfl⟩ : ∃ (r : Fin 100000) (c : Fin 40), i = ix2 r c := ⟨i 0, i 1, eq_ix2 i⟩
  exact halves_eq_pre x S D W (recipOf D) _ _ r c (recipOf_apply D r)
    (fun e => slice_top W _ e c) (fun e => slice_bot W _ e c)

variable (m : (ℓ : Loc nD τ sig) → Buf (Elt Ideal) ℓ) (ρ : Dev nD → PrngReg) (c : Dev nD)

/-- The result buffer after the run holds the model of the launch arrays. -/
theorem result_eq : W4 m ρ c (Proc.devRef .tc main_v34)
    = model (agg (m ((c : Thread nD τ).loc main_arg3)) (m ((c : Thread nD τ).loc main_arg4)))
        (deg (m ((c : Thread nD τ).loc main_arg4))) (m ((c : Thread nD τ).loc main_arg0))
        (m ((c : Thread nD τ).loc main_arg1)) (m ((c : Thread nD τ).loc main_arg2)) := by
  have hh : hid m c = hidden (m ((c : Thread nD τ).loc main_arg0))
      (agg (m ((c : Thread nD τ).loc main_arg3)) (m ((c : Thread nD τ).loc main_arg4)) (m ((c : Thread nD τ).loc main_arg0)))
      (deg (m ((c : Thread nD τ).loc main_arg4))) (m ((c : Thread nD τ).loc main_arg1)) :=
    hidden_eq _ _ _ _
  rw [result_blocked, out_eq, hh]
  rfl

/-- The run of the idealized kernel program: it terminates, its result buffer holds the model of the launch arrays,
    and the arguments are unchanged. -/
theorem run :
    θ_run defs (onTc (τ := τ) (main (F := Ideal))) ⟨m, fun _ => 0, ρ⟩ (fun r => ∀ c : Dev nD,
      r.2.mem ((c.tc : Thread nD τ).loc main_v34)
        = model (agg (m ((c : Thread nD τ).loc main_arg3)) (m ((c : Thread nD τ).loc main_arg4)))
            (deg (m ((c : Thread nD τ).loc main_arg4))) (m ((c : Thread nD τ).loc main_arg0))
            (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (run_main m ρ)

end Cert.KernelIdeal.Whole

end
-- ==== Proof.LibStretch.lean ====
/-
  Two general facts about a straight line of host operations, for any program.

  * `after_append`: the buffer contents after two stretches of operations run one after the other are the second
    stretch's fold over the first's — so a long line is read back stretch by stretch, each stretch from whatever
    contents it finds.
  * `ofBuf_toBuf`: a value carried to the type of the buffer a typed reference names and back again is the value;
    the operations of an inlined call write and read their buffers through exactly these two transports, so every
    value that passes from one such operation to the next comes through unchanged. (A value that enters such an
    operation from a plain buffer, or leaves the last one, passes ONE transport: it is removed by
    `eq_of_heq (cast_heq _ _)`, the two types being the same once the reference's type is computed.)
-/
import Idealize.ShloMosaic.Lib.StableHlo.Run

noncomputable section

namespace Cert.LibStretch

open Idealize.ShloMosaic Idealize.ShloMosaic.StableHlo

variable {τ : Topo} {sig : RefSig} {Val : EltTy → Type}

/-- Two stretches one after the other. -/
theorem after_append (l1 l2 : List (HloOp τ sig Val)) (V : Valuation τ sig Val) :
    after (l1 ++ l2) V = after l2 (after l1 V) := by
  induction l1 generalizing V with
  | nil => rfl
  | cons a l ih => exact ih _

/-- Contents carried to a buffer's own type and back are the contents. -/
theorem ofBuf_toBuf {T : BufTy} (x : TRef sig T) (v : T.Contents Val) : x.ofBuf (x.toBuf v) = v := by
  obtain ⟨r, h, h1, h2⟩ := x
  subst h
  rfl

end Cert.LibStretch

end
-- ==== Proof.LibStack.lean ====
/-
  Two matrices joined into one, read at an entry given by its coordinates, for any extents.

  Side by side (`[a, b₁]` and `[a, b₂]` joined along the last axis into `[a, t]`): a column below `b₁` reads the left
  matrix at that column, a column `b₁ + k` reads the right matrix at column `k` (`beside_left`, `beside_right`).
  One above the other (`[a₁, b]` and `[a₂, b]` joined along the first axis into `[t, b]`): a row below `a₁` reads the
  upper matrix, a row `a₁ + k` the lower one at row `k` (`above_top`, `above_bottom`).
  The joined extent `t` and the coordinate in it are separate variables tied by an equation between naturals, so the
  lemmas apply to a literal extent such as 128 with pieces of 64 without any arithmetic in a type.
-/
import Idealize.ShloMosaic.Lib.Pipeline.Value
import Idealize.ShloMosaic.Lib.ValueIdx

noncomputable section

namespace Cert.LibStack

open Idealize.ShloMosaic Idealize.ShloMosaic.ValueIdx

variable {α : Type}

/-- Side by side, a column among the first `b₁`: the left matrix at the same row and column. -/
theorem beside_left {a b₁ b₂ t : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, t]⟩ 1)
    (p : Fin a) (k : Fin b₁) (k' : Fin t) (hk : k'.val = k.val) :
    concatenate ⟨2, ![a, t]⟩ 1 [⟨⟨2, ![a, b₁]⟩, x⟩, ⟨⟨2, ![a, b₂]⟩, y⟩] h (ix2 p k') = x (ix2 p k) :=
  concatenate_pair_apply_left 1 x y h (ix2 p k') rfl (ix2 p k) fun b => by
    match b with
    | ⟨0, _⟩ => rfl
    | ⟨1, _⟩ => exact hk.symm

/-- Side by side, column `b₁ + k`: the right matrix at the same row and column `k`. -/
theorem beside_right {a b₁ b₂ t : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, t]⟩ 1)
    (p : Fin a) (k : Fin b₂) (k' : Fin t) (hk : k'.val = k.val + b₁) :
    concatenate ⟨2, ![a, t]⟩ 1 [⟨⟨2, ![a, b₁]⟩, x⟩, ⟨⟨2, ![a, b₂]⟩, y⟩] h (ix2 p k') = y (ix2 p k) :=
  concatenate_pair_apply_right 1 x y h (ix2 p k') rfl rfl (ix2 p k)
    (fun b hb => by
      match b with
      | ⟨0, _⟩ => rfl
      | ⟨1, _⟩ => exact absurd rfl hb)
    (by show k.val + b₁ = k'.val; exact hk.symm)

/-- One above the other, a row among the first `a₁`: the upper matrix at the same row and column. -/
theorem above_top {a₁ a₂ b t : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![t, b]⟩ 0)
    (k : Fin a₁) (k' : Fin t) (q : Fin b) (hk : k'.val = k.val) :
    concatenate ⟨2, ![t, b]⟩ 0 [⟨⟨2, ![a₁, b]⟩, x⟩, ⟨⟨2, ![a₂, b]⟩, y⟩] h (ix2 k' q) = x (ix2 k q) :=
  concatenate_pair_apply_left 0 x y h (ix2 k' q) rfl (ix2 k q) fun b => by
    match b with
    | ⟨0, _⟩ => exact hk.symm
    | ⟨1, _⟩ => rfl

/-- One above the other, row `a₁ + k`: the lower matrix at row `k` and the same column. -/
theorem above_bottom {a₁ a₂ b t : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![t, b]⟩ 0)
    (k : Fin a₂) (k' : Fin t) (q : Fin b) (hk : k'.val = k.val + a₁) :
    concatenate ⟨2, ![t, b]⟩ 0 [⟨⟨2, ![a₁, b]⟩, x⟩, ⟨⟨2, ![a₂, b]⟩, y⟩] h (ix2 k' q) = y (ix2 k q) :=
  concatenate_pair_apply_right 0 x y h (ix2 k' q) rfl rfl (ix2 k q)
    (fun b hb => by
      match b with
      | ⟨0, _⟩ => exact absurd rfl hb
      | ⟨1, _⟩ => rfl)
    (by show k.val + a₁ = k'.val; exact hk.symm)

end Cert.LibStack

end
-- ==== Proof.RefValue.lean ====
/-
  The reference program's result is the two-layer model.

  The reference is one line of 72 host operations: per layer, the neighbour sums (gather at `src`, scatter-add at
  `dst`), the in-degrees, the mean `S / max (deg, 1)` (the divisor placed as a column and spread across the lanes),
  the node features and the mean joined side by side into `[n, 256]`, and one product against all 256 rows of the
  weight matrix; a clamp at zero after the first layer, a row-wise log-softmax after the second.

  The line is read back in five stretches, cut right before each join, each stretch from whatever contents it finds:
  through the first mean; the first join, product and clamp; through the second mean; the second join and product; the
  log-softmax. A product over the 256 joined columns is the layer (`Sage.pre_of_joined`: the left 128 columns are the
  features, the right 128 the mean), so the stretches compose to the model.
-/
import proofs.«164352_j27324581937608_2_alg».proof.Proof.RefRun
import proofs.«164352_j27324581937608_2_alg».proof.Proof.Sage
import proofs.«164352_j27324581937608_2_alg».proof.Proof.LibStretch
import proofs.«164352_j27324581937608_2_alg».proof.Proof.LibStack
import proofs.«164352_j27324581937608_2_alg».proof.Proof.LibRowMax
import proofs.«164352_j27324581937608_2_alg».proof.Proof.LibLogSoftmax
import Idealize.ShloMosaic.Lib.Pipeline.Value
import Idealize.ShloMosaic.Lib.ValueIdx

set_option maxRecDepth 131072

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo
open Idealize.ShloMosaic.ValueIdx Cert.Sage

/-- The neighbour sums of `x`: row `src e` of `x` (an index below zero wrapped by the number of nodes) added into row
    `dst e`, over all edges `e`, from zeros. -/
def agg (src dst : (⟨S1600000, .i32⟩ : BufTy).Contents (Elt Ideal)) (x : (⟨S100000x128, .f32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] Gen.bcast_S_S100000x128 (constant (F := Ideal) S_ .f32 0x00000000#32))
    (broadcastInDim S1600000x1 ![0] Gen.bcast_S1600000_S1600000x1_0 dst)
    (Host.gather gather_S100000x128_S1600000x1_S1600000x128_1_0_n_n_0_1_1128 x
      (broadcastInDim S1600000x1 ![0] Gen.bcast_S1600000_S1600000x1_0
        (select (cmpi .slt src (broadcastInDim S1600000 ![] Gen.bcast_S_S1600000 (constantI S_ 32 0#32)))
          (addi src (broadcastInDim S1600000 ![] Gen.bcast_S_S1600000 (constantI S_ 32 100000#32))) src)))

/-- The in-degrees: a one added at `dst e` for every edge `e`, from zeros. -/
def deg (dst : (⟨S1600000, .i32⟩ : BufTy).Contents (Elt Ideal)) : (⟨S100000, .f32⟩ : BufTy).Contents (Elt Ideal) :=
  Host.scatterAdd scatter_S100000_S1600000x1_S1600000_n_0_0_1
    (broadcastInDim S100000 ![] Gen.bcast_S_S100000 (constant (F := Ideal) S_ .f32 0x00000000#32))
    (broadcastInDim S1600000x1 ![0] Gen.bcast_S1600000_S1600000x1_0 dst)
    (broadcastInDim S1600000 ![] Gen.bcast_S_S1600000 (constant (F := Ideal) S_ .f32 0x3F800000#32))

/-- The neighbour mean for a degree vector `D`: the sums divided by `max (D, 1)`, the divisor placed as a column and
    spread over the lanes. -/
def meanBy (S : FVec Ideal S100000x128 .f32) (D : FVec Ideal S100000 .f32) : FVec Ideal S100000x128 .f32 :=
  Host.divf S (broadcastInDim S100000x128 ![0, 1] Gen.bcast_S100000x1_S100000x128_0_1
    (broadcastInDim S100000x1 ![0] Gen.bcast_S100000_S100000x1_0
      (maximumf D (broadcastInDim S100000 ![] Gen.bcast_S_S100000 (constant (F := Ideal) S_ .f32 0x3F800000#32)))))

/-- The features and the mean side by side. -/
def joined (x y : (⟨S100000x128, .f32⟩ : BufTy).Contents (Elt Ideal)) : (⟨S100000x256, .f32⟩ : BufTy).Contents (Elt Ideal) :=
  concatenate S100000x256 1 [⟨S100000x128, x⟩, ⟨S100000x128, y⟩] Gen.concatenates_S100000x128_S100000x128_S100000x256_d1

/-- The host's row-wise log-softmax. -/
def lsm (z : (⟨S100000x40, .f32⟩ : BufTy).Contents (Elt Ideal)) : (⟨S100000x40, .f32⟩ : BufTy).Contents (Elt Ideal) :=
  subf (subf z (broadcastInDim S100000x40 ![0, 1] Gen.bcast_S100000x1_S100000x40_0_1 (broadcastInDim S100000x1 ![0] Gen.bcast_S100000_S100000x1_0
        (maximumf (broadcastInDim S100000 ![] Gen.bcast_S_S100000 (constant (F := Ideal) S_ .f32 0xFF800000#32))
          (Host.reduce FloatOps.maximumf z (constant (F := Ideal) S_ .f32 0xFF800000#32) Gen.reducesTo_S100000x40_S100000_d1 Gen.h_S_)))))
    (broadcastInDim S100000x40 ![0, 1] Gen.bcast_S100000x1_S100000x40_0_1 (Host.log (broadcastInDim S100000x1 ![0] Gen.bcast_S100000_S100000x1_0
        (Host.reduceAdd (Host.exp (subf z (broadcastInDim S100000x40 ![0, 1] Gen.bcast_S100000x1_S100000x40_0_1 (broadcastInDim S100000x1 ![0] Gen.bcast_S100000_S100000x1_0
          (maximumf (broadcastInDim S100000 ![] Gen.bcast_S_S100000 (constant (F := Ideal) S_ .f32 0xFF800000#32))
            (Host.reduce FloatOps.maximumf z (constant (F := Ideal) S_ .f32 0xFF800000#32) Gen.reducesTo_S100000x40_S100000_d1 Gen.h_S_))))))
          (constant (F := Ideal) S_ .f32 0x00000000#32) Gen.reducesTo_S100000x40_S100000_d1 Gen.h_S_))))

/-! ## The five stretches -/

abbrev opsI : List (HloOp τ sig (Elt Ideal)) := ops
/-- Through the first mean. -/
abbrev stA : List (HloOp τ sig (Elt Ideal)) := opsI.take 25
abbrev rsA : List (HloOp τ sig (Elt Ideal)) := opsI.drop 25
/-- The first join, product and clamp. -/
abbrev stB : List (HloOp τ sig (Elt Ideal)) := rsA.take 5
abbrev rsB : List (HloOp τ sig (Elt Ideal)) := rsA.drop 5
/-- Through the second mean. -/
abbrev stC : List (HloOp τ sig (Elt Ideal)) := rsB.take 25
abbrev rsC : List (HloOp τ sig (Elt Ideal)) := rsB.drop 25
/-- The second join and product. -/
abbrev stD : List (HloOp τ sig (Elt Ideal)) := rsC.take 2
/-- The log-softmax. -/
abbrev stE : List (HloOp τ sig (Elt Ideal)) := rsC.drop 2

/-- The line read back stretch by stretch. -/
theorem after_stages (V : Valuation τ sig (Elt Ideal)) :
    after opsI V = after stE (after stD (after stC (after stB (after stA V)))) := by
  have s : ∀ (l : List (HloOp τ sig (Elt Ideal))) (k : ℕ) (V : Valuation τ sig (Elt Ideal)),
      after l V = after (l.drop k) (after (l.take k) V) := fun l k V => by
    rw [← Cert.LibStretch.after_append, List.take_append_drop]
  rw [s opsI 25, s rsA 5, s rsB 25, s rsC 2]

variable (V : Valuation τ sig (Elt Ideal))

set_option maxHeartbeats 4000000 in
theorem stA_mean : after stA V (Proc.devRef .tc main_v18)
    = meanBy (agg (V (Proc.devRef .tc main_arg3)) (V (Proc.devRef .tc main_arg4)) (V (Proc.devRef .tc main_arg0)))
        (deg (V (Proc.devRef .tc main_arg4))) := by
  simp only [stA, opsI, ops, List.take_succ_cons, List.take_zero]
  after_results_simp <;> rfl

theorem stA_keep : after stA V (Proc.devRef .tc main_arg0) = V (Proc.devRef .tc main_arg0)
    ∧ after stA V (Proc.devRef .tc main_arg1) = V (Proc.devRef .tc main_arg1)
    ∧ after stA V (Proc.devRef .tc main_arg2) = V (Proc.devRef .tc main_arg2)
    ∧ after stA V (Proc.devRef .tc main_arg3) = V (Proc.devRef .tc main_arg3)
    ∧ after stA V (Proc.devRef .tc main_arg4) = V (Proc.devRef .tc main_arg4) := by
  simp only [stA, opsI, ops, List.take_succ_cons, List.take_zero]
  refine ⟨?_, ?_, ?_, ?_, ?_⟩ <;> (after_results_simp <;> rfl)

/-- The first layer as the host spells it: one product over the 256 joined columns, clamped at zero. -/
def hostHidden (x y : (⟨S100000x128, .f32⟩ : BufTy).Contents (Elt Ideal)) (W : (⟨S256x128, .f32⟩ : BufTy).Contents (Elt Ideal)) :
    (⟨S100000x128, .f32⟩ : BufTy).Contents (Elt Ideal) :=
  maximumf (Host.dotGeneral (F := Ideal) (φ₁ := .f32) (φ₂ := .f32) dot_S100000x256_S256x128_S100000x128_1_0_0_1_n_n none (joined x y) W)
    (broadcastInDim S100000x128 ![] Gen.bcast_S_S100000x128 (constant (F := Ideal) S_ .f32 0x00000000#32))

theorem stB_hidden : after stB V (Proc.devRef .tc main_v21)
    = hostHidden (V (Proc.devRef .tc main_arg0)) (V (Proc.devRef .tc main_v18)) (V (Proc.devRef .tc main_arg1)) := by
  simp only [stB, rsA, opsI, ops, List.take_succ_cons, List.take_zero, List.drop_succ_cons, List.drop_zero]
  after_results_simp <;> rfl

theorem stB_keep : after stB V (Proc.devRef .tc main_arg2) = V (Proc.devRef .tc main_arg2)
    ∧ after stB V (Proc.devRef .tc main_arg3) = V (Proc.devRef .tc main_arg3)
    ∧ after stB V (Proc.devRef .tc main_arg4) = V (Proc.devRef .tc main_arg4) := by
  simp only [stB, rsA, opsI, ops, List.take_succ_cons, List.take_zero, List.drop_succ_cons, List.drop_zero]
  refine ⟨?_, ?_, ?_⟩ <;> (after_results_simp <;> rfl)

set_option maxHeartbeats 4000000 in
theorem stC_mean : after stC V (Proc.devRef .tc main_v40)
    = meanBy (agg (V (Proc.devRef .tc main_arg3)) (V (Proc.devRef .tc main_arg4)) (V (Proc.devRef .tc main_v21)))
        (deg (V (Proc.devRef .tc main_arg4))) := by
  simp only [stC, rsB, rsA, opsI, ops, List.take_succ_cons, List.take_zero, List.drop_succ_cons, List.drop_zero]
  after_results_simp <;> rfl

theorem stC_keep : after stC V (Proc.devRef .tc main_v21) = V (Proc.devRef .tc main_v21)
    ∧ after stC V (Proc.devRef .tc main_arg2) = V (Proc.devRef .tc main_arg2) := by
  simp only [stC, rsB, rsA, opsI, ops, List.take_succ_cons, List.take_zero, List.drop_succ_cons, List.drop_zero]
  refine ⟨?_, ?_⟩ <;> (after_results_simp <;> rfl)

theorem stD_logits : after stD V (Proc.devRef .tc main_v42)
    = Host.dotGeneral (F := Ideal) (φ₁ := .f32) (φ₂ := .f32) dot_S100000x256_S256x40_S100000x40_1_0_0_1_n_n none
        (joined (V (Proc.devRef .tc main_v21)) (V (Proc.devRef .tc main_v40))) (V (Proc.devRef .tc main_arg2)) := by
  simp only [stD, rsC, rsB, rsA, opsI, ops, List.take_succ_cons, List.take_zero, List.drop_succ_cons, List.drop_zero]
  after_results_simp <;> rfl

set_option maxHeartbeats 4000000 in
theorem stE_out : after stE V (Proc.devRef .tc main_v43) = lsm (V (Proc.devRef .tc main_v42)) := by
  simp only [stE, rsC, rsB, rsA, opsI, ops, List.drop_succ_cons, List.drop_zero]
  after_results_simp
  simp only [Cert.LibStretch.ofBuf_toBuf]
  rfl

/-- The host's spelling of the two layers, over the five arrays. -/
def hostModel (src dst : (⟨S1600000, .i32⟩ : BufTy).Contents (Elt Ideal)) (h : FVec Ideal S100000x128 .f32)
    (W1 : FVec Ideal S256x128 .f32) (W2 : FVec Ideal S256x40 .f32) : FVec Ideal S100000x40 .f32 :=
  lsm (Host.dotGeneral (F := Ideal) (φ₁ := .f32) (φ₂ := .f32) dot_S100000x256_S256x40_S100000x40_1_0_0_1_n_n none
    (joined (hostHidden h (meanBy (agg src dst h) (deg dst)) W1)
      (meanBy (agg src dst (hostHidden h (meanBy (agg src dst h) (deg dst)) W1)) (deg dst)))
    W2)

/-- The whole line's result, from any contents: the host's spelling of the two layers. -/
theorem fold_eq : after opsI V (Proc.devRef .tc main_v43)
    = hostModel (V (Proc.devRef .tc main_arg3)) (V (Proc.devRef .tc main_arg4)) (V (Proc.devRef .tc main_arg0))
        (V (Proc.devRef .tc main_arg1)) (V (Proc.devRef .tc main_arg2)) := by
  rw [after_stages, stE_out, stD_logits, (stC_keep _).1, (stC_keep _).2, stC_mean, stB_hidden, (stB_keep _).1, (stB_keep _).2.1,
    (stB_keep _).2.2, stA_mean, (stA_keep V).1, (stA_keep V).2.1, (stA_keep V).2.2.1, (stA_keep V).2.2.2.1,
    (stA_keep V).2.2.2.2]
  rfl

/-! ## The host's spelling is the model -/

-- the gather and the scatter-adds stay closed from here on: nothing below depends on what they compute
attribute [local irreducible] agg deg

/-- The mean at an entry: the sum divided by the row's `max (D, 1)`. -/
theorem meanBy_apply (S : FVec Ideal S100000x128 .f32) (D : FVec Ideal S100000 .f32) (r : Fin 100000) (e : Fin 128) :
    meanBy S D (ix2 r e) = Ideal.div (S (ix2 r e)) (max (D (ix1 r)) one) := by
  have hone : broadcastInDim S100000 ![] Gen.bcast_S_S100000 (constant (F := Ideal) S_ .f32 0x3F800000#32) (ix1 r) = one :=
    broadcastInDim_apply _ Gen.bcast_S_S100000 _ (ix1 r) ix0 (fun a => a.elim0)
  have hcol : broadcastInDim S100000x128 ![0, 1] Gen.bcast_S100000x1_S100000x128_0_1
      (broadcastInDim S100000x1 ![0] Gen.bcast_S100000_S100000x1_0
        (maximumf D (broadcastInDim S100000 ![] Gen.bcast_S_S100000 (constant (F := Ideal) S_ .f32 0x3F800000#32))))
        (ix2 r e)
      = max (D (ix1 r)) one :=
    (Cert.LibLogSoftmax.keep_host_apply _ Gen.bcast_S100000_S100000x1_0 Gen.bcast_S100000x1_S100000x128_0_1 r e).trans
      (congrArg (max (D (ix1 r))) hone)
  exact congrArg (Ideal.div (S (ix2 r e))) hcol

/-- One product over the 256 joined columns is the layer before its activation. -/
theorem prod_eq {b : ℕ} (wf : DotDims.WF ⟨2, ![100000, 256]⟩ ⟨2, ![256, b]⟩ ⟨2, ![100000, b]⟩ [1] [0] [0] [1] [] [])
    (x S : FVec Ideal S100000x128 .f32) (D : FVec Ideal S100000 .f32) (W : Mat 256 b) :
    Host.dotGeneral (F := Ideal) (φ₁ := .f32) (φ₂ := .f32) (Cert.LibRowMax.plainDims 100000 256 b wf) none
        (joined x (meanBy S D)) W
      = logits x S D W := by
  funext i
  obtain ⟨r, c, rfl⟩ : ∃ (r : Fin 100000) (c : Fin b), i = ix2 r c := ⟨i 0, i 1, eq_ix2 i⟩
  refine (Cert.LibRowMax.dotGeneral_plain_apply wf none _ (joined x (meanBy S D)) W r c).trans ?_
  exact pre_of_joined x S D W (joined x (meanBy S D)) r c
    (fun e => Cert.LibStack.beside_left x (meanBy S D) _ r e (top e) rfl)
    (fun e => (Cert.LibStack.beside_right x (meanBy S D) _ r e (bot e)
      (by show 128 + e.val = e.val + 128; omega)).trans (meanBy_apply S D r e))

/-- The host's first layer is the first layer. -/
theorem hostHidden_eq (x S : FVec Ideal S100000x128 .f32) (D : FVec Ideal S100000 .f32) (W : Mat 256 128) :
    hostHidden x (meanBy S D) W = hidden x S D W := by
  funext i
  have hz : broadcastInDim S100000x128 ![] Gen.bcast_S_S100000x128 (constant (F := Ideal) S_ .f32 0x00000000#32) i = zero :=
    broadcastInDim_apply _ Gen.bcast_S_S100000x128 _ i ix0 (fun a => a.elim0)
  have hp : Host.dotGeneral (F := Ideal) (φ₁ := .f32) (φ₂ := .f32) dot_S100000x256_S256x128_S100000x128_1_0_0_1_n_n none
      (joined x (meanBy S D)) W i = logits x S D W i :=
    congrFun (prod_eq Gen.dot_S100000x256_S256x128_S100000x128_1_0_0_1_n_n_wf x S D W) i
  exact (congrArg₂ max hp hz).trans rfl

/-- The host's row-wise log-softmax is the log-softmax. -/
theorem lsm_eq (z : FVec Ideal S100000x40 .f32) : lsm z = logSoftmax z := by
  funext i
  obtain ⟨p, q, rfl⟩ : ∃ (p : Fin 100000) (q : Fin 40), i = ix2 p q := ⟨i 0, i 1, eq_ix2 i⟩
  exact Cert.LibLogSoftmax.host_apply z Gen.reducesTo_S100000x40_S100000_d1 (by decide) Gen.h_S_
    Gen.bcast_S_S100000 Gen.bcast_S100000_S100000x1_0 Gen.bcast_S100000x1_S100000x40_0_1 p q

/-- The host's spelling of the two layers is the model. -/
theorem hostModel_eq (src dst : (⟨S1600000, .i32⟩ : BufTy).Contents (Elt Ideal)) (h : FVec Ideal S100000x128 .f32)
    (W1 : FVec Ideal S256x128 .f32) (W2 : FVec Ideal S256x40 .f32) :
    hostModel src dst h W1 W2 = model (agg src dst) (deg dst) h W1 W2 := by
  unfold hostModel model
  rw [hostHidden_eq, lsm_eq]
  exact congrArg logSoftmax (prod_eq Gen.dot_S100000x256_S256x40_S100000x40_1_0_0_1_n_n_wf _ _ _ _)

variable (m : (ℓ : Loc nD τ sig) → Buf (Elt Ideal) ℓ) (ρ : Dev nD → PrngReg)

/-- The reference's result buffer after the run holds the model of the launch arrays. -/
theorem result_eq (c : Dev nD) : after opsI (launchContents m c) (Proc.devRef .tc main_v43)
    = model (agg (m ((c.tc : Thread nD τ).loc main_arg3)) (m ((c.tc : Thread nD τ).loc main_arg4)))
        (deg (m ((c.tc : Thread nD τ).loc main_arg4))) (m ((c.tc : Thread nD τ).loc main_arg0))
        (m ((c.tc : Thread nD τ).loc main_arg1)) (m ((c.tc : Thread nD τ).loc main_arg2)) :=
  (fold_eq (launchContents m c)).trans (hostModel_eq _ _ _ _ _)

set_option maxHeartbeats 4000000 in
/-- The run of the idealized reference program: it terminates, its result buffer holds the model of the launch arrays,
    and the arguments are unchanged. -/
theorem run :
    θ_run defs (onTc (τ := τ) (main (F := Ideal))) ⟨m, fun _ => 0, ρ⟩ (fun r => ∀ c : Dev nD,
      r.2.mem ((c.tc : Thread nD τ).loc main_v43)
        = model (agg (m ((c.tc : Thread nD τ).loc main_arg3)) (m ((c.tc : Thread nD τ).loc main_arg4)))
            (deg (m ((c.tc : Thread nD τ).loc main_arg4))) (m ((c.tc : Thread nD τ).loc main_arg0))
            (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c main_v43).trans (result_eq m c),
     (h c main_arg0).trans (by after_results_simp <;> rfl),
     (h c main_arg1).trans (by after_results_simp <;> rfl),
     (h c main_arg2).trans (by after_results_simp <;> rfl),
     (h c main_arg3).trans (by after_results_simp <;> rfl),
     (h c main_arg4).trans (by after_results_simp <;> rfl)⟩)
    (run_after m ρ)

end Cert.ReferenceIdeal.RefValue

end
-- ==== Proof.lean ====
/-
  A two-layer mean-aggregation graph network on the extended reals: a kernel program (two pallas_calls among host
  operations) against its one-line host reference.

  Both programs compute, from node features `h`, weights `W1`, `W2` and edge lists `src`, `dst`,

      H   = max (h · W1[:128] + (A h / max (deg, 1)) · W1[128:], 0)
      out = log_softmax (H · W2[:128] + (A H / max (deg, 1)) · W2[128:])          along each row,

  where `A x` adds row `src e` of `x` into row `dst e` over all edges and `deg` counts the edges into each node
  (Proof/Sage.lean: `model`). The kernel multiplies the neighbour sums by the reciprocal `1 / max (deg, 1)` and runs
  two products of 128 terms per layer, block by block of 4000 rows; the reference divides, joins the features and the
  mean side by side and runs one product of 256 terms. The two agree on every extended real: `max (d, 1)` is never
  zero, so multiplying by its reciprocal is dividing by it, and a sum of 256 terms splits into two sums of 128 in any
  commutative monoid. No input needs to be finite for this, and the gather and scatter-adds are the same operators
  applied to the same operands in both programs, so they are never opened.

  Proof/KernelFirst.lean and Proof/KernelSecond.lean read each pallas_call as one whole-array function of the arrays
  it finds; Proof/KernelRun.lean, Proof/KernelHost.lean and Proof/KernelValue.lean thread the two calls through the
  host operations to the model; Proof/RefRun.lean and Proof/RefValue.lean read the reference's line of host operations
  back to the model. Defs.lean states `preserves_Kernel_KernelIdeal` as `True` (the ideal pass's ledger is empty: it
  rewrote no operation), so that conjunct is `trivial`.
-/
import proofs.«164352_j27324581937608_2_alg».proof.Defs
import proofs.«164352_j27324581937608_2_alg».proof.Proof.Gen.Kernel
import proofs.«164352_j27324581937608_2_alg».proof.Proof.Gen.Kernel.Skeleton
import proofs.«164352_j27324581937608_2_alg».proof.Proof.Gen.Kernel.Launch
import proofs.«164352_j27324581937608_2_alg».proof.Proof.Gen.Kernel.Points
import proofs.«164352_j27324581937608_2_alg».proof.Proof.Gen.Kernel.Frame
import proofs.«164352_j27324581937608_2_alg».proof.Proof.Gen.KernelIdeal
import proofs.«164352_j27324581937608_2_alg».proof.Proof.Gen.KernelIdeal.Skeleton
import proofs.«164352_j27324581937608_2_alg».proof.Proof.Gen.KernelIdeal.Launch
import proofs.«164352_j27324581937608_2_alg».proof.Proof.Gen.KernelIdeal.Points
import proofs.«164352_j27324581937608_2_alg».proof.Proof.Gen.KernelIdeal.Frame
import proofs.«164352_j27324581937608_2_alg».proof.Proof.Gen.ReferenceIdeal
import proofs.«164352_j27324581937608_2_alg».proof.Proof.Gen.Pre_finite_inputs
import proofs.«164352_j27324581937608_2_alg».proof.Proof.KernelValue
import proofs.«164352_j27324581937608_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.RefValue.run m ρ)

/-- The two programs' neighbour-sum operators are one operator, -/
theorem agg_eq : Cert.ReferenceIdeal.RefValue.agg = Cert.KernelIdeal.Whole.agg := rfl

/-- and their in-degree vectors one vector. -/
theorem deg_eq : Cert.ReferenceIdeal.RefValue.deg = Cert.KernelIdeal.Whole.deg := rfl

/-- Both programs end with the model of the launch arrays in their result buffers. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2, agg_eq, deg_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
